-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024x1024 .f32) (main_arg5 : FVec F S1024 .f32) (main_arg6 : FVec F S1024x1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S16x4096x64 : Shape := ⟨3, ![16, 4096, 64]⟩
abbrev S512x1024 : Shape := ⟨2, ![512, 1024]⟩
abbrev S16x512x64 : Shape := ⟨3, ![16, 512, 64]⟩
abbrev S1x1024 : Shape := ⟨2, ![1, 1024]⟩
abbrev S512x16x64 : Shape := ⟨3, ![512, 16, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S16x4096x64, .bf16⟩
  | .hbm, ⟨13, _⟩ => ⟨S16x4096x64, .bf16⟩
  | .hbm, ⟨14, _⟩ => ⟨S16x4096x64, .bf16⟩
  | .hbm, ⟨15, _⟩ => ⟨S16x4096x64, .bf16⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024, .f32⟩
  | .local _ .vmem, ⟨7, _⟩ => ⟨S16x512x64, .bf16⟩
  | .local _ .vmem, ⟨8, _⟩ => ⟨S16x512x64, .bf16⟩
  | .local _ .vmem, ⟨9, _⟩ => ⟨S16x512x64, .bf16⟩
  | .local _ .vmem, ⟨10, _⟩ => ⟨S16x512x64, .bf16⟩
  | .local _ .vmem, ⟨11, _⟩ => ⟨S16x512x64, .bf16⟩
  | .local _ .vmem, ⟨12, _⟩ => ⟨S16x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x4096x64, .bf16⟩
  | .local _ .vmem, ⟨16, _⟩ => ⟨S1x4096x64, .bf16⟩
  | .local _ .vmem, ⟨17, _⟩ => ⟨S1x4096x64, .bf16⟩
  | .local _ .vmem, ⟨18, _⟩ => ⟨S1x4096x64, .bf16⟩
  | .local _ .vmem, ⟨19, _⟩ => ⟨S1x512x64, .bf16⟩
  | .local _ .vmem, ⟨20, _⟩ => ⟨S1x512x64, .bf16⟩
  | .local _ .vmem, ⟨21, _⟩ => ⟨S16x512x64, .bf16⟩
  | .local _ .vmem, ⟨22, _⟩ => ⟨S16x512x64, .bf16⟩
  | .local _ .vmem, ⟨23, _⟩ => ⟨S1024x1024, .bf16⟩
  | .local _ .vmem, ⟨24, _⟩ => ⟨S1024, .f32⟩
  | .local _ .vmem, ⟨25, _⟩ => ⟨S512x1024, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  packedbf16_S16x512x64_S16x512x64_0_0_0 : (Rect.unit (s := S16x512x64) ![0, 0, 0] S16x512x64.size inb_S16x512x64_S16x512x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S16x512x64_S16x512x64 : S16x512x64.ShapeCasts S16x512x64
  transposes_S16x512x64_p1_0_2_S512x16x64 : S16x512x64.Transposes [1, 0, 2] S512x16x64
  shapeCasts_S512x16x64_S512x1024 : S512x16x64.ShapeCasts S512x1024
  dot_S512x1024_S1024x1024_S512x1024_1_1_0_0_n_n_wf : DotDims.WF S512x1024 S1024x1024 S512x1024 [1] [1] [0] [0] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x512x64.size a ≤ S16x4096x64.size a
  hwx0_6 : ∀ i : grid0.Coords, EltTy.bits .bf16 = 32 ∨ (Rect.block (s := S16x4096x64) S16x512x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x512x64.size a ≤ S16x4096x64.size a
  hwx0_7 : ∀ i : grid0.Coords, EltTy.bits .bf16 = 32 ∨ (Rect.block (s := S16x4096x64) S16x512x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512x64.size a ≤ S16x4096x64.size a
  hwx0_8 : ∀ i : grid0.Coords, EltTy.bits .bf16 = 32 ∨ (Rect.block (s := S16x4096x64) S16x512x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x4096x64.size a
  hwx1_0 : ∀ i : grid1.Coords, EltTy.bits .bf16 = 32 ∨ (Rect.block (s := S16x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S16x4096x64.size a
  hwx1_1 : ∀ i : grid1.Coords, EltTy.bits .bf16 = 32 ∨ (Rect.block (s := S16x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S16x4096x64.size a
  hwx1_2 : ∀ i : grid1.Coords, EltTy.bits .bf16 = 32 ∨ (Rect.block (s := S16x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S16x4096x64.size a
  hwx1_3 : ∀ i : grid1.Coords, EltTy.bits .bf16 = 32 ∨ (Rect.block (s := S16x4096x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x512x64.size a ≤ S16x4096x64.size a
  hwx2_0 : ∀ i : grid2.Coords, EltTy.bits .bf16 = 32 ∨ (Rect.block (s := S16x4096x64) S16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S16x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S16x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S16x512x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x16x64, .f32⟩
  | .hbm, ⟨14, _⟩ => ⟨S16x4096x64, .f32⟩
  | .hbm, ⟨15, _⟩ => ⟨S1024x1024, .f32⟩
  | .hbm, ⟨16, _⟩ => ⟨S4096x1024, .f32⟩
  | .hbm, ⟨17, _⟩ => ⟨S4096x16x64, .f32⟩
  | .hbm, ⟨18, _⟩ => ⟨S16x4096x64, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x16x64, .f32⟩
  | .hbm, ⟨25, _⟩ => ⟨S16x4096x64, .f32⟩
  | .hbm, ⟨26, _⟩ => ⟨S16x4096x4096, .f32⟩
  | .hbm, ⟨27, _⟩ => ⟨S_, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x64, .f32⟩
  | .hbm, ⟨45, _⟩ => ⟨S4096x16x64, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x16x64 : S4096x1024.ShapeCasts S4096x16x64
  transposes_S4096x16x64_S16x4096x64_1_0_2 : S4096x16x64.Transposes [1, 0, 2] S16x4096x64
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S4096x16x64_1_0_2 : S16x4096x64.Transposes [1, 0, 2] S4096x16x64
  shapeCasts_S4096x16x64_S4096x1024 : S4096x16x64.ShapeCasts S4096x1024
  dot_S4096x1024_S1024x1024_S4096x1024_1_0_0_1_n_n_wf : DotDims.WF S4096x1024 S1024x1024 S4096x1024 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.KRun.lean ====
/-
  The idealized kernel's run with EVERY buffer named at the end.

  The program is four segments: the host's casts of the four weights, then three pipelined regions. Its frame states
  only that the eight argument arrays end as they were launched. The same run, read once more against the final state,
  says more: every buffer that outlives the regions — the arguments, the cast weights, the three projections, the
  attention output and the result — ends holding the contents the fold of the four segments leaves there, region by
  region: a region's own arrays at what its write-backs leave, everything else as the region found it. The result
  array and the arguments are then two instances of one fact.
-/
import proofs.«148096_j44581760532548_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in every final state each buffer that is not scoped to
    a region holds what the fold of the four segments leaves in it (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array after the run is the fold's contents at it. -/
theorem result_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_v6) = W4 m ρ c (Proc.devRef .tc main_v6) :=
  h c _ (mem_uc main_v6 (by decide))

/-- Each argument array after the run is as launched. -/
theorem args_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c),
   (h c _ (mem_uc main_arg7 (by decide))).trans (W4_main_arg7 m ρ c)⟩

end Cert.KernelIdeal.Whole

end
-- ==== Proof.Spec.lean ====
/-
  Multi-head self-attention over 4096 tokens of width 1024, in 16 heads of width 64, as ONE function of its eight
  arrays, index by index, on the extended reals.

  Three stages. (1) Three linear maps of the tokens, each re-laid head-major: entry (h, r, d) of a projection is row r of
  the tokens against row 64·h + d of the weight, plus (for the query and the value) entry 64·h + d of the bias.
  (2) Per head, every query row against all 4096 key rows, scaled by 1/8; the row's maximum subtracted; exponentials;
  each divided by the row's sum of exponentials; and the resulting weights against the value rows.
  (3) The heads merged back to width 1024 (column c is lane c mod 64 of head c div 64) and one more linear map with bias.

  The attention of one query row is stated over that row alone and the key and value matrices of its head
  (`attnRow`), so that it does not know where in the sequence the row sits: a program that works on 512 rows at a time
  and one that works on all of them meet at this function.
-/
import Idealize.ShloMosaic.PureOps.Ideal.Laws
import Idealize.ShloMosaic.Lib.ValueIdx

noncomputable section

namespace Cert.Mha

open Idealize.ShloMosaic Idealize.ShloMosaic.ValueIdx

/-- Tokens: 4096 rows of width 1024. -/
abbrev Tok : Shape := ⟨2, ![4096, 1024]⟩
/-- A weight matrix: 1024 output rows of width 1024. -/
abbrev Wt : Shape := ⟨2, ![1024, 1024]⟩
/-- A bias: one entry per output column. -/
abbrev Bias : Shape := ⟨1, ![1024]⟩
/-- Head-major activations: 16 heads, 4096 rows, 64 lanes. -/
abbrev Heads : Shape := ⟨3, ![16, 4096, 64]⟩

/-- The column of lane `d` of head `h` in the merged width: 64·h + d. -/
def col (h : Fin 16) (d : Fin 64) : Fin 1024 := ⟨h.val * 64 + d.val, by have := h.isLt; have := d.isLt; omega⟩
/-- The head a merged column belongs to. -/
def headOf (c : Fin 1024) : Fin 16 := ⟨c.val / 64, by have := c.isLt; omega⟩
/-- The lane of a merged column within its head. -/
def laneOf (c : Fin 1024) : Fin 64 := ⟨c.val % 64, by omega⟩

theorem col_val (h : Fin 16) (d : Fin 64) : (col h d).val = h.val * 64 + d.val := rfl
theorem headOf_val (c : Fin 1024) : (headOf c).val = c.val / 64 := rfl
theorem laneOf_val (c : Fin 1024) : (laneOf c).val = c.val % 64 := rfl

/-! ## Stage 1: a linear map of the tokens, head-major -/

/-- Row `r` of the tokens against row 64·h + d of the weight. -/
def headsAt (x : Tok.Idx → EReal) (w : Wt.Idx → EReal) (h : Fin 16) (r : Fin 4096) (d : Fin 64) : EReal :=
  ∑ k : Fin 1024, x (ix2 r k) * w (ix2 (col h d) k)

/-- The same plus the bias entry of that column. -/
def headsBAt (x : Tok.Idx → EReal) (w : Wt.Idx → EReal) (b : Bias.Idx → EReal) (h : Fin 16) (r : Fin 4096) (d : Fin 64) : EReal :=
  headsAt x w h r d + b (ix1 (col h d))

/-- A projection without bias, as a head-major array. -/
def heads (x : Tok.Idx → EReal) (w : Wt.Idx → EReal) : Heads.Idx → EReal := fun j => headsAt x w (j 0) (j 1) (j 2)
/-- A projection with bias, as a head-major array. -/
def headsB (x : Tok.Idx → EReal) (w : Wt.Idx → EReal) (b : Bias.Idx → EReal) : Heads.Idx → EReal :=
  fun j => headsBAt x w b (j 0) (j 1) (j 2)

theorem heads_ix3 (x : Tok.Idx → EReal) (w : Wt.Idx → EReal) (h : Fin 16) (r : Fin 4096) (d : Fin 64) :
    heads x w (ix3 h r d) = headsAt x w h r d := rfl
theorem headsB_ix3 (x : Tok.Idx → EReal) (w : Wt.Idx → EReal) (b : Bias.Idx → EReal) (h : Fin 16) (r : Fin 4096) (d : Fin 64) :
    headsB x w b (ix3 h r d) = headsBAt x w b h r d := rfl

/-! ## Stage 2: one query row's attention over its head -/

/-- The scale 1/8 = 64^(-1/2), as the f32 word both programs carry. -/
def scale : EReal := Ideal.ofBits .f32 0x3E000000#32
/-- The f32 word of -∞, from which a row's maximum is folded. -/
def negInf : EReal := Ideal.ofBits .f32 0xFF800000#32

/-- The scaled score of a query row against key row `j`. -/
def score (q : Fin 64 → EReal) (k : Fin 4096 → Fin 64 → EReal) (j : Fin 4096) : EReal :=
  (∑ e : Fin 64, q e * k j e) * scale
/-- The row's largest score. -/
def rowMax (q : Fin 64 → EReal) (k : Fin 4096 → Fin 64 → EReal) : EReal :=
  (Finset.univ : Finset (Fin 4096)).fold max negInf (fun j => score q k j)
/-- The exponential of a score less the row's maximum. -/
def expo (q : Fin 64 → EReal) (k : Fin 4096 → Fin 64 → EReal) (j : Fin 4096) : EReal :=
  Ideal.exp (score q k j - rowMax q k)
/-- The row's sum of exponentials. -/
def denom (q : Fin 64 → EReal) (k : Fin 4096 → Fin 64 → EReal) : EReal := ∑ j : Fin 4096, expo q k j
/-- The weight the row gives key `j`. -/
def prob (q : Fin 64 → EReal) (k : Fin 4096 → Fin 64 → EReal) (j : Fin 4096) : EReal :=
  Ideal.div (expo q k j) (denom q k)
/-- The row's output lane `d`: its weights against column `d` of the values. -/
def attnRow (q : Fin 64 → EReal) (k v : Fin 4096 → Fin 64 → EReal) (d : Fin 64) : EReal :=
  ∑ j : Fin 4096, prob q k j * v j d

/-- Attention at (h, r, d): row `r` of head `h` of the queries over head `h` of the keys and values. -/
def attnAt (Q K V : Heads.Idx → EReal) (h : Fin 16) (r : Fin 4096) (d : Fin 64) : EReal :=
  attnRow (fun e => Q (ix3 h r e)) (fun j e => K (ix3 h j e)) (fun j e => V (ix3 h j e)) d

/-- Attention as a head-major array. -/
def attn (Q K V : Heads.Idx → EReal) : Heads.Idx → EReal := fun i => attnAt Q K V (i 0) (i 1) (i 2)

theorem attn_ix3 (Q K V : Heads.Idx → EReal) (h : Fin 16) (r : Fin 4096) (d : Fin 64) :
    attn Q K V (ix3 h r d) = attnAt Q K V h r d := rfl

/-! ## Stage 3: the heads merged and projected -/

/-- Row `r` of the merged heads against row `c` of the weight, plus the bias entry `c`. -/
def outAt (O : Heads.Idx → EReal) (w : Wt.Idx → EReal) (b : Bias.Idx → EReal) (r : Fin 4096) (c : Fin 1024) : EReal :=
  (∑ k : Fin 1024, O (ix3 (headOf k) r (laneOf k)) * w (ix2 c k)) + b (ix1 c)

/-- The output projection as an array of tokens. -/
def outProj (O : Heads.Idx → EReal) (w : Wt.Idx → EReal) (b : Bias.Idx → EReal) : Tok.Idx → EReal :=
  fun i => outAt O w b (i 0) (i 1)

theorem outProj_ix2 (O : Heads.Idx → EReal) (w : Wt.Idx → EReal) (b : Bias.Idx → EReal) (r : Fin 4096) (c : Fin 1024) :
    outProj O w b (ix2 r c) = outAt O w b r c := rfl

/-! ## The whole function -/

/-- The attention layer: tokens, then query weight and bias, key weight, value weight and bias, output weight and bias. -/
def model (x : Tok.Idx → EReal) (wq : Wt.Idx → EReal) (bq : Bias.Idx → EReal) (wk wv : Wt.Idx → EReal) (bv : Bias.Idx → EReal)
    (wo : Wt.Idx → EReal) (bo : Bias.Idx → EReal) : Tok.Idx → EReal :=
  outProj (attn (headsB x wq bq) (heads x wk) (headsB x wv bv)) wo bo

end Cert.Mha

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibHeadLayout.lean ====
/-
  Heads split out of, and merged back into, the trailing axis of a matrix, read at an index given by coordinates.

  A matrix `[a, n]` whose row length is `n = b · c` is the same row-major sequence as the array `[a, b, c]`: column
  `m = j · c + k` of row `i` is entry `(i, j, k)`, because `i · (b · c) + (j · c + k) = (i · b + j) · c + k`. So the cast
  `[a, n] → [a, b, c]` reads, at `(i, j, k)`, the matrix at `(i, m)`, and the cast back reads, at `(i, m)`, the array at
  `(i, j, k)`. The caller names the column `m` and supplies `m = j · c + k` (with `j = m / c`, `k = m % c` when going back).

  The permutation `[1, 0, 2]` of a rank-3 array exchanges its first two axes: the result at `(j, i, k)` is the operand at
  `(i, j, k)`.
-/
import Idealize.ShloMosaic.Lib.ValueLayout

namespace Cert.HeadLayout

open Idealize.ShloMosaic Idealize.ShloMosaic.ValueIdx

variable {α : Type}

/-- The row-major positions agree: `i · (b · c) + (j · c + k) = (i · b + j) · c + k`. -/
theorem pos_split (b c i j k : ℕ) : i * (b * c) + (j * c + k) = (i * b + j) * c + k := by
  rw [Nat.add_mul, Nat.mul_assoc, Nat.add_assoc]

/-- An `[a, n]` matrix with `n = b · c` cast to `[a, b, c]` reads, at `(i, j, k)`, the matrix at `(i, m)` where
    `m = j · c + k`. -/
theorem shapeCast_an_abc_apply {a n b c : ℕ} (x : (⟨2, ![a, n]⟩ : Shape).Idx → α)
    (h : (⟨2, ![a, n]⟩ : Shape).ShapeCasts ⟨3, ![a, b, c]⟩) (hn : n = b * c)
    (i : Fin a) (j : Fin b) (k : Fin c) (m : Fin n) (hm : m.val = j.val * c + k.val) :
    shapeCast ⟨3, ![a, b, c]⟩ x h (ix3 i j k) = x (ix2 i m) :=
  shapeCast_apply x h _ _ (by
    rw [Shape.rowMajor_val_two, Shape.rowMajor_val_three]
    show i.val * n + m.val = (i.val * b + j.val) * c + k.val
    rw [hm, hn]
    exact pos_split b c i.val j.val k.val)

/-- An `[a, b, c]` array cast to the `[a, n]` matrix with `n = b · c` reads, at `(i, m)`, the array at `(i, j, k)` where
    `m = j · c + k`. -/
theorem shapeCast_abc_an_apply {a n b c : ℕ} (x : (⟨3, ![a, b, c]⟩ : Shape).Idx → α)
    (h : (⟨3, ![a, b, c]⟩ : Shape).ShapeCasts ⟨2, ![a, n]⟩) (hn : n = b * c)
    (i : Fin a) (m : Fin n) (j : Fin b) (k : Fin c) (hm : m.val = j.val * c + k.val) :
    shapeCast ⟨2, ![a, n]⟩ x h (ix2 i m) = x (ix3 i j k) :=
  shapeCast_apply x h _ _ (by
    rw [Shape.rowMajor_val_two, Shape.rowMajor_val_three]
    show (i.val * b + j.val) * c + k.val = i.val * n + m.val
    rw [hm, hn]
    exact (pos_split b c i.val j.val k.val).symm)

/-- A rank-3 array with its first two axes exchanged (permutation `[1, 0, 2]`) reads, at `(j, i, k)`, the operand at
    `(i, j, k)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun e => match e with | ⟨0, _⟩ => rfl | ⟨1, _⟩ => rfl | ⟨2, _⟩ => rfl

end Cert.HeadLayout
-- ==== Proof.PayProj.lean ====
/-
  The four linear maps of the attention layer, each read at one entry of what its program stores.

  A projection stores a head-major array `[16, 512, 64]`. Its entry `(h, r, d)` is reached through three re-layouts of a
  `[512, 1024]` matrix: the exchange of the first two axes reads `(r, h, d)` of the `[512, 16, 64]` array, which is the
  matrix entry `(r, 64·h + d)` because splitting a row of length `1024 = 16 · 64` keeps row-major positions. That matrix
  entry is row `r` of the tokens against row `64·h + d` of the weight (a contraction over the last axis of both operands,
  into a zero accumulator), plus, for the query and the value, entry `64·h + d` of the bias, which is laid out as one row
  and repeated over the 512 rows. The narrowing format changes are the identity on the extended reals.

  The output projection runs the re-layouts the other way: the merged matrix entry `(r, k)` is the head-major entry
  `(k / 64, r, k % 64)`, since `k = (k / 64) · 64 + k % 64`; the product against row `c` of the weight and the bias entry
  `c` follow as before.
-/
import proofs.«148096_j44581760532548_2_alg».proof.Proof.Spec
import proofs.«148096_j44581760532548_2_alg».proof.Proof.LibContractRows
import proofs.«148096_j44581760532548_2_alg».proof.Proof.LibHeadLayout
import proofs.«148096_j44581760532548_2_alg».proof.Proof.Gen.KernelIdeal.Skeleton
import Idealize.ShloMosaic.Lib.ValueLayout

noncomputable section

namespace Cert.Mha.Pay

open Cert.KernelIdeal Cert.KernelIdeal.Gen Cert.Mha Idealize.ShloMosaic Idealize.ShloMosaic.ValueIdx
open Cert.HeadLayout Idealize.ShloMosaic.ContractRows

/-- The contraction all four products use — axis 1 of the left operand with axis 1 of the right, no batch axis — is
    rows against rows at the sizes 512 × 1024 by 1024 × 1024. -/
theorem dot_eq : dot_S512x1024_S1024x1024_S512x1024_1_1_0_0_n_n = DotDims.transposedRhs 512 1024 1024 := rfl

/-- The bias, laid out as one row and repeated over the rows, read at `(r, c)` is its entry `c`. -/
theorem bias_row (b : Vec Ideal S1024 .f32) (r : Fin 512) (c : Fin 1024) :
    broadcastTo S512x1024 (shapeCast S1x1024 b shapeCasts_S1024_S1x1024) broadcasts_S1x1024_S512x1024 (ix2 r c)
      = b (ix1 c) :=
  (broadcastTo_1b_ab_apply _ _ r c).trans (shapeCast_a_1a_apply _ _ 0 c)

/-- The query projection at `(h, r, d)`: row `r` of the tokens against row `64·h + d` of the weight, plus the bias
    entry `64·h + d`. -/
theorem pay_q (x0 : Vec Ideal S512x1024 .f32) (x1 : Vec Ideal S1024x1024 .bf16) (x2 : Vec Ideal S1024 .f32)
    (h : Fin 16) (r : Fin 512) (d : Fin 64) :
    k0_pay2 (F := Ideal) x0 x1 x2 (ix3 h r d)
      = (∑ k : Fin 1024, x0 (ix2 r k) * x1 (ix2 (col h d) k)) + x2 (ix1 (col h d)) := by
  unfold k0_pay2 k0_pay1
  refine (truncf_apply (ψ := .bf16) _ bitsLt_bf16_f32 (ix3 h r d)).trans ?_
  refine (transpose_ix3_102_apply _ _ h r d).trans ?_
  refine (shapeCast_an_abc_apply _ _ rfl r h d (col h d) rfl).trans ?_
  refine (addf_apply _ _ _).trans ?_
  refine congrArg₂ (· + ·) ?_ (bias_row x2 r (col h d))
  rw [shapeCast_self]
  exact matmul_zero_apply none _ _ r (col h d)

/-- The key projection at `(h, r, d)`: row `r` of the tokens against row `64·h + d` of the weight; no bias. -/
theorem pay_k (x0 : Vec Ideal S512x1024 .f32) (x1 : Vec Ideal S1024x1024 .bf16)
    (h : Fin 16) (r : Fin 512) (d : Fin 64) :
    k0_pay3 (F := Ideal) x0 x1 (ix3 h r d) = ∑ k : Fin 1024, x0 (ix2 r k) * x1 (ix2 (col h d) k) := by
  unfold k0_pay3 k0_pay1
  refine (truncf_apply (ψ := .bf16) _ bitsLt_bf16_f32 (ix3 h r d)).trans ?_
  refine (transpose_ix3_102_apply _ _ h r d).trans ?_
  refine (shapeCast_an_abc_apply _ _ rfl r h d (col h d) rfl).trans ?_
  rw [shapeCast_self]
  exact matmul_zero_apply none _ _ r (col h d)

/-- The value projection at `(h, r, d)`: as the query projection, with its own weight and bias. -/
theorem pay_v (x0 : Vec Ideal S512x1024 .f32) (x1 : Vec Ideal S1024x1024 .bf16) (x2 : Vec Ideal S1024 .f32)
    (h : Fin 16) (r : Fin 512) (d : Fin 64) :
    k0_pay4 (F := Ideal) x0 x1 x2 (ix3 h r d)
      = (∑ k : Fin 1024, x0 (ix2 r k) * x1 (ix2 (col h d) k)) + x2 (ix1 (col h d)) := by
  unfold k0_pay4 k0_pay1
  refine (truncf_apply (ψ := .bf16) _ bitsLt_bf16_f32 (ix3 h r d)).trans ?_
  refine (transpose_ix3_102_apply _ _ h r d).trans ?_
  refine (shapeCast_an_abc_apply _ _ rfl r h d (col h d) rfl).trans ?_
  refine (addf_apply _ _ _).trans ?_
  refine congrArg₂ (· + ·) ?_ (bias_row x2 r (col h d))
  rw [shapeCast_self]
  exact matmul_zero_apply none _ _ r (col h d)

/-- The output projection at `(r, c)`: row `r` of the merged heads — column `k` is lane `k % 64` of head `k / 64` —
    against row `c` of the weight, plus the bias entry `c`. -/
theorem pay_out (x0 : Vec Ideal S16x512x64 .bf16) (x1 : Vec Ideal S1024x1024 .bf16) (x2 : Vec Ideal S1024 .f32)
    (r : Fin 512) (c : Fin 1024) :
    k2_pay1 (F := Ideal) x0 x1 x2 (ix2 r c)
      = (∑ k : Fin 1024, x0 (ix3 (headOf k) r (laneOf k)) * x1 (ix2 c k)) + x2 (ix1 c) := by
  unfold k2_pay1
  refine (addf_apply _ _ _).trans ?_
  refine congrArg₂ (· + ·) ?_ (bias_row x2 r c)
  rw [shapeCast_self x1, shapeCast_self x0]
  refine (matmul_zero_apply (φ₁ := .bf16) (φ₂ := .bf16) none _ _ r c).trans ?_
  refine Finset.sum_congr rfl fun k _ => ?_
  refine congrArg (· * x1 (ix2 c k)) ?_
  refine (shapeCast_abc_an_apply _ _ rfl r k (headOf k) (laneOf k) ?_).trans ?_
  · show k.val = k.val / 64 * 64 + k.val % 64
    omega
  · exact transpose_ix3_102_apply _ _ r (headOf k) (laneOf k)

end Cert.Mha.Pay

end
-- ==== Proof.KQkv.lean ====
/-
  The first region, read as three arrays: after it the three head-major buffers hold the query, key and value
  projections of the arrays the region finds.

  The region runs 8 points; point t works on token rows 512·t … The token block is that band of rows; the three
  weights and the two biases are fetched whole. What the body stores at entry (h, r, d) of an output block is row r of
  the token block against row 64·h + d of the weight (plus the bias entry for the query and the value). Each output's
  blocks tile its array — entry (h, r, d) lies in the block of point r / 512 — so each array ends holding one function.
-/
import proofs.«148096_j44581760532548_2_alg».proof.Proof.PayProj
import proofs.«148096_j44581760532548_2_alg».proof.Proof.Spec
import proofs.«148096_j44581760532548_2_alg».proof.Proof.Gen.KernelIdeal.Frame
import Idealize.ShloMosaic.Lib.Pipeline.Value
import Idealize.ShloMosaic.Lib.ValueIdx

set_option maxRecDepth 16384

noncomputable section

namespace Cert.KernelIdeal.QkvValue

open Cert.KernelIdeal Cert.KernelIdeal.Gen Cert.Mha
open Idealize.ShloMosaic Idealize.ShloMosaic.TcCoe Idealize.ShloMosaic.ValueIdx Idealize.SL.Sem
open Idealize.ShloMosaic.Pipeline (Dat Cfg Window)
open Cert.Mha.Pay

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the eight points: the token window and the three output windows move one block of
    512 rows per point; the weights and biases are fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 ∧ win0_5.index t (0 : Fin 1) = 0
    ∧ win0_6.index t (0 : Fin 3) = 0 ∧ win0_6.index t (1 : Fin 3) = t.val ∧ win0_6.index t (2 : Fin 3) = 0
    ∧ win0_7.index t (0 : Fin 3) = 0 ∧ win0_7.index t (1 : Fin 3) = t.val ∧ win0_7.index t (2 : Fin 3) = 0
    ∧ win0_8.index t (0 : Fin 3) = 0 ∧ win0_8.index t (1 : Fin 3) = t.val ∧ win0_8.index t (2 : Fin 3) = 0 :=
  (by decide +kernel : ∀ t : Fin grid0.N, _)

/-- One entry of a block of a projection with bias, from blocks that are restrictions of the whole arrays: the token
    block is rows 512·n … of the tokens, the weight and the bias are whole. -/
theorem headsB_point (X : Tok.Idx → EReal) (W : Wt.Idx → EReal) (B : Bias.Idx → EReal)
    (x0 : Vec Ideal S512x1024 .f32) (x1 : Vec Ideal S1024x1024 .bf16) (x2 : Vec Ideal S1024 .f32)
    (p : Vec Ideal S16x512x64 .bf16)
    (hp : ∀ (h : Fin 16) (r : Fin 512) (d : Fin 64), p (ix3 h r d) = (∑ k : Fin 1024, x0 (ix2 r k) * x1 (ix2 (col h d) k)) + x2 (ix1 (col h d)))
    (j : S16x512x64.Idx) (i : S16x4096x64.Idx) (n : Nat)
    (hi0 : (i 0).val = (j 0).val) (hi1 : (i 1).val = n * 512 + (j 1).val) (hi2 : (i 2).val = (j 2).val)
    (h0 : ∀ (r : Fin 512) (k : Fin 1024) (r' : Fin 4096), r'.val = n * 512 + r.val → x0 (ix2 r k) = X (ix2 r' k))
    (h1 : x1 = W) (h2 : x2 = B) :
    p j = headsB X W B i := by
  obtain ⟨h, r, d, rfl⟩ : ∃ (h : Fin 16) (r : Fin 512) (d : Fin 64), j = ix3 h r d := ⟨j 0, j 1, j 2, eq_ix3 j⟩
  obtain ⟨h', r', d', rfl⟩ : ∃ (h' : Fin 16) (r' : Fin 4096) (d' : Fin 64), i = ix3 h' r' d' := ⟨i 0, i 1, i 2, eq_ix3 i⟩
  have eh : h' = h := Fin.ext hi0
  have ed : d' = d := Fin.ext hi2
  subst eh ed h1 h2
  rw [hp, headsB_ix3]
  unfold headsBAt headsAt
  refine congrArg (· + x2 (ix1 (col h' d'))) (Finset.sum_congr rfl fun k _ => ?_)
  rw [h0 r k r' hi1]

/-- The same for a projection without bias. -/
theorem heads_point (X : Tok.Idx → EReal) (W : Wt.Idx → EReal)
    (x0 : Vec Ideal S512x1024 .f32) (x1 : Vec Ideal S1024x1024 .bf16)
    (p : Vec Ideal S16x512x64 .bf16)
    (hp : ∀ (h : Fin 16) (r : Fin 512) (d : Fin 64), p (ix3 h r d) = ∑ k : Fin 1024, x0 (ix2 r k) * x1 (ix2 (col h d) k))
    (j : S16x512x64.Idx) (i : S16x4096x64.Idx) (n : Nat)
    (hi0 : (i 0).val = (j 0).val) (hi1 : (i 1).val = n * 512 + (j 1).val) (hi2 : (i 2).val = (j 2).val)
    (h0 : ∀ (r : Fin 512) (k : Fin 1024) (r' : Fin 4096), r'.val = n * 512 + r.val → x0 (ix2 r k) = X (ix2 r' k))
    (h1 : x1 = W) :
    p j = heads X W i := by
  obtain ⟨h, r, d, rfl⟩ : ∃ (h : Fin 16) (r : Fin 512) (d : Fin 64), j = ix3 h r d := ⟨j 0, j 1, j 2, eq_ix3 j⟩
  obtain ⟨h', r', d', rfl⟩ : ∃ (h' : Fin 16) (r' : Fin 4096) (d' : Fin 64), i = ix3 h' r' d' := ⟨i 0, i 1, i 2, eq_ix3 i⟩
  have eh : h' = h := Fin.ext hi0
  have ed : d' = d := Fin.ext hi2
  subst eh ed h1
  rw [hp, heads_ix3]
  unfold headsAt
  refine Finset.sum_congr rfl fun k _ => ?_
  rw [h0 r k r' hi1]

/-- The token block at point `t` is rows 512·t … of the tokens. -/
theorem tok_blk (c : Dev nD) (t : Fin cfg0.N) (r : Fin 512) (k : Fin 1024) (r' : Fin 4096) (hr : r'.val = t.val * 512 + r.val) :
    iblk0 V c 0 t (ix2 r k) = V c main_arg0 (ix2 r' k) := by
  obtain ⟨e0, e1, -⟩ := idx_facts t
  show V c main_arg0 (((cfg0.win 0).blk t).view.emb (ix2 r k)) = V c main_arg0 (ix2 r' k)
  refine congrArg (V c main_arg0) (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

/-- A weight window's block is the whole weight, at every point. -/
theorem wq_blk (c : Dev nD) (t : Fin cfg0.N) : iblk0 V c 1 t = V c main_v0 := by
  obtain ⟨-, -, e2, e3, -⟩ := idx_facts t
  funext y
  show V c main_v0 (((cfg0.win 1).blk t).view.emb y) = V c main_v0 y
  refine congrArg (V c main_v0) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega
theorem bq_blk (c : Dev nD) (t : Fin cfg0.N) : iblk0 V c 2 t = V c main_arg2 := by
  obtain ⟨-, -, -, -, e4, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 1) * 1024 + 1 * (y 0).val = (y 0).val; omega
theorem wk_blk (c : Dev nD) (t : Fin cfg0.N) : iblk0 V c 3 t = V c main_v1 := by
  obtain ⟨-, -, -, -, -, e5, e6, -⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega
theorem wv_blk (c : Dev nD) (t : Fin cfg0.N) : iblk0 V c 4 t = V c main_v2 := by
  obtain ⟨-, -, -, -, -, -, -, e7, e8, -⟩ := idx_facts t
  funext y
  show V c main_v2 (((cfg0.win 4).blk t).view.emb y) = V c main_v2 y
  refine congrArg (V c main_v2) (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega
theorem bv_blk (c : Dev nD) (t : Fin cfg0.N) : iblk0 V c 5 t = V c main_arg5 := by
  obtain ⟨-, -, -, -, -, -, -, -, -, e9, -⟩ := idx_facts t
  funext y
  show V c main_arg5 (((cfg0.win 5).blk t).view.emb y) = V c main_arg5 y
  refine congrArg (V c main_arg5) (funext fun a => Fin.ext ?_)
  match a with
  | ⟨0, _⟩ => show win0_5.index t (0 : Fin 1) * 1024 + 1 * (y 0).val = (y 0).val; omega

/-- WHAT POINT `t` WRITES BACK of the queries is block `t` of the query projection of the arrays the region finds. -/
theorem flushed_q (c : Dev nD) (t : Fin cfg0.N) :
    (dat0 V c).flushed 6 t = ((cfg0.win 6).blk t).view.read (Elt Ideal) (headsB (V c main_arg0) (V c main_v0) (V c main_arg2)) := by
  show (cfg0.win 6).cut (grid0.coords t) ((dat0 V c).after 6 t) = _
  rw [after0_6]
  unfold out0_6
  rw [View.canon_unit_zero hz3]
  simp only [View.ld_unit_zero (S := S512x1024) hz2, View.ld_unit_zero (S := S1024x1024) hz2, View.ld_unit_zero (S := S1024) hz1]
  obtain ⟨-, -, -, -, -, -, -, -, -, -, e10, e11, e12, -⟩ := idx_facts t
  funext j
  refine headsB_point (V c main_arg0) (V c main_v0) (V c main_arg2) _ _ _ _ (pay_q _ _ _) j (((cfg0.win 6).blk t).view.emb j) t.val ?_ ?_ ?_
    (fun r k r' hr => tok_blk V c t r k r' hr) (wq_blk V c t) (bq_blk V c t)
  · show win0_6.index t (0 : Fin 3) * 16 + 1 * (j 0).val = _; omega
  · show win0_6.index t (1 : Fin 3) * 512 + 1 * (j 1).val = _; omega
  · show win0_6.index t (2 : Fin 3) * 64 + 1 * (j 2).val = _; omega

/-- The same for the keys (no bias). -/
theorem flushed_k (c : Dev nD) (t : Fin cfg0.N) :
    (dat0 V c).flushed 7 t = ((cfg0.win 7).blk t).view.read (Elt Ideal) (heads (V c main_arg0) (V c main_v1)) := by
  show (cfg0.win 7).cut (grid0.coords t) ((dat0 V c).after 7 t) = _
  rw [after0_7]
  unfold out0_7
  rw [View.canon_unit_zero hz3]
  simp only [View.ld_unit_zero (S := S512x1024) hz2, View.ld_unit_zero (S := S1024x1024) hz2]
  obtain ⟨-, -, -, -, -, -, -, -, -, -, -, -, -, e13, e14, e15, -⟩ := idx_facts t
  funext j
  refine heads_point (V c main_arg0) (V c main_v1) _ _ _ (pay_k _ _) j (((cfg0.win 7).blk t).view.emb j) t.val ?_ ?_ ?_
    (fun r k r' hr => tok_blk V c t r k r' hr) (wk_blk V c t)
  · show win0_7.index t (0 : Fin 3) * 16 + 1 * (j 0).val = _; omega
  · show win0_7.index t (1 : Fin 3) * 512 + 1 * (j 1).val = _; omega
  · show win0_7.index t (2 : Fin 3) * 64 + 1 * (j 2).val = _; omega

/-- The same for the values. -/
theorem flushed_v (c : Dev nD) (t : Fin cfg0.N) :
    (dat0 V c).flushed 8 t = ((cfg0.win 8).blk t).view.read (Elt Ideal) (headsB (V c main_arg0) (V c main_v2) (V c main_arg5)) := by
  show (cfg0.win 8).cut (grid0.coords t) ((dat0 V c).after 8 t) = _
  rw [after0_8]
  unfold out0_8
  rw [View.canon_unit_zero hz3]
  simp only [View.ld_unit_zero (S := S512x1024) hz2, View.ld_unit_zero (S := S1024x1024) hz2, View.ld_unit_zero (S := S1024) hz1]
  obtain ⟨-, -, -, -, -, -, -, -, -, -, -, -, -, -, -, -, e16, e17, e18⟩ := idx_facts t
  funext j
  refine headsB_point (V c main_arg0) (V c main_v2) (V c main_arg5) _ _ _ _ (pay_v _ _ _) j (((cfg0.win 8).blk t).view.emb j) t.val ?_ ?_ ?_
    (fun r k r' hr => tok_blk V c t r k r' hr) (wv_blk V c t) (bv_blk V c t)
  · show win0_8.index t (0 : Fin 3) * 16 + 1 * (j 0).val = _; omega
  · show win0_8.index t (1 : Fin 3) * 512 + 1 * (j 1).val = _; omega
  · show win0_8.index t (2 : Fin 3) * 64 + 1 * (j 2).val = _; omega

/-- An index of a head-major array is in point `t`'s block of an output window iff each coordinate is in the block's
    range on its axis. -/
theorem mem_blk_q (t : Fin cfg0.N) (i : S16x4096x64.Idx) :
    i ∈ ((cfg0.win 6).blk t).view.set ↔ ∀ a : Fin 3, win0_6.index t a * S16x512x64.size a ≤ (i a).val ∧ (i a).val < win0_6.index t a * S16x512x64.size a + S16x512x64.size a := by
  show i ∈ ((View.whole main_v4_0).slice (win0_6.rect t)).set ↔ _
  rw [View.set_slice_whole, Rect.mem_set_unit]
  exact Iff.rfl
theorem mem_blk_k (t : Fin cfg0.N) (i : S16x4096x64.Idx) :
    i ∈ ((cfg0.win 7).blk t).view.set ↔ ∀ a : Fin 3, win0_7.index t a * S16x512x64.size a ≤ (i a).val ∧ (i a).val < win0_7.index t a * S16x512x64.size a + S16x512x64.size a := by
  show i ∈ ((View.whole main_v4_1).slice (win0_7.rect t)).set ↔ _
  rw [View.set_slice_whole, Rect.mem_set_unit]
  exact Iff.rfl
theorem mem_blk_v (t : Fin cfg0.N) (i : S16x4096x64.Idx) :
    i ∈ ((cfg0.win 8).blk t).view.set ↔ ∀ a : Fin 3, win0_8.index t a * S16x512x64.size a ≤ (i a).val ∧ (i a).val < win0_8.index t a * S16x512x64.size a + S16x512x64.size a := by
  show i ∈ ((View.whole main_v4_2).slice (win0_8.rect t)).set ↔ _
  rw [View.set_slice_whole, Rect.mem_set_unit]
  exact Iff.rfl

/-- Every entry of a head-major array lies in the block of the point numbered by its row's 512-row band. -/
theorem cover_q (i : S16x4096x64.Idx) : ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 64 := (i 2).isLt
  refine ⟨⟨(i 1).val / 512, by show _ < 8; omega⟩, flush0_6 _, ?_⟩
  rw [mem_blk_q]
  obtain ⟨-, -, -, -, -, -, -, -, -, -, e10, e11, e12, -⟩ := idx_facts ⟨(i 1).val / 512, by show _ < 8; omega⟩
  intro a
  match a with
  | ⟨0, _⟩ =>
    show win0_6.index _ (0 : Fin 3) * 16 ≤ (i 0).val ∧ (i 0).val < win0_6.index _ (0 : Fin 3) * 16 + 16
    rw [e10]; omega
  | ⟨1, _⟩ =>
    show win0_6.index _ (1 : Fin 3) * 512 ≤ (i 1).val ∧ (i 1).val < win0_6.index _ (1 : Fin 3) * 512 + 512
    rw [e11]; show (i 1).val / 512 * 512 ≤ _ ∧ _ < (i 1).val / 512 * 512 + 512; omega
  | ⟨2, _⟩ =>
    show win0_6.index _ (2 : Fin 3) * 64 ≤ (i 2).val ∧ (i 2).val < win0_6.index _ (2 : Fin 3) * 64 + 64
    rw [e12]; omega
theorem cover_k (i : S16x4096x64.Idx) : ∃ t : Fin cfg0.N, (cfg0.win 7).flush t = true ∧ i ∈ ((cfg0.win 7).blk t).view.set := by
  have hi0 : (i 0).val < 16 := (i 0).isLt
  have hi1 : (i 1).val < 4096 := (i 1).isLt
  have hi2 : (i 2).val < 64 := (i 2).isLt
  refine ⟨⟨(i 1).val / 512, by show _ < 8; omega⟩, flush0_7 _, ?_⟩
  rw [mem_blk_k]
  obtain ⟨-, -, -, -, -, -, -, -, -, -, -, -, -, e13, e14, e15, -⟩ := idx_facts ⟨(i 1).val / 512, by show _ < 8; omega⟩
  intro a
  match a with
  | ⟨0, _⟩ =>
    show win0_7.index _ (0 : Fin 3) * 16 ≤ (i 0).val ∧ (i 0).val < win0_7.index _ (0 : Fin 3) * 16 + 16
    rw [e13]; omega
  | ⟨1, _⟩ =>
    show win0_7.index _ (1 : Fin 3) * 512 ≤ (i 1).val ∧ (i 1).val < win0_7.index _ (1 : Fin 3) * 512 + 512
    rw [e14]; show (i 1).val / 512 * 512 ≤ _ ∧ _ < (i 1).val / 512 * 512 + 512; omega
  | ⟨2, _⟩ =>
    show win0_7.index _ (2 : Fin 3) * 64 ≤ (i 2).val ∧ (i 2).val < win0_7.index _ (2 : Fin 3) * 64 + 64
    rw [e15]; omega
theorem cover_v (i : S16x4096x64.Idx) : ∃ t : Fin cfg0.N, (cfg0.win 8).flush t = true ∧ i ∈ ((cfg0.win 8).blk t).view.set := by
  have hi0 : (i 0).val < 16 := (i 0).isLt
  have hi1 : (i 1).val < 4096 := (i 1).isLt
  have hi2 : (i 2).val < 64 := (i 2).isLt
  refine ⟨⟨(i 1).val / 512, by show _ < 8; omega⟩, flush0_8 _, ?_⟩
  rw [mem_blk_v]
  obtain ⟨-, -, -, -, -, -, -, -, -, -, -, -, -, -, -, -, e16, e17, e18⟩ := idx_facts ⟨(i 1).val / 512, by show _ < 8; omega⟩
  intro a
  match a with
  | ⟨0, _⟩ =>
    show win0_8.index _ (0 : Fin 3) * 16 ≤ (i 0).val ∧ (i 0).val < win0_8.index _ (0 : Fin 3) * 16 + 16
    rw [e16]; omega
  | ⟨1, _⟩ =>
    show win0_8.index _ (1 : Fin 3) * 512 ≤ (i 1).val ∧ (i 1).val < win0_8.index _ (1 : Fin 3) * 512 + 512
    rw [e17]; show (i 1).val / 512 * 512 ≤ _ ∧ _ < (i 1).val / 512 * 512 + 512; omega
  | ⟨2, _⟩ =>
    show win0_8.index _ (2 : Fin 3) * 64 ≤ (i 2).val ∧ (i 2).val < win0_8.index _ (2 : Fin 3) * 64 + 64
    rw [e18]; omega

/-- The three arrays after the first region: the query, key and value projections of the arrays the region finds. -/
theorem final_q (c : Dev nD) : (dat0 V c).arrAt 6 cfg0.N = headsB (V c main_arg0) (V c main_v0) (V c main_arg2) :=
  (dat0 V c).arrAt_eq_of_cover 6 _ (fun t _ => flushed_q V c t) cover_q
theorem final_k (c : Dev nD) : (dat0 V c).arrAt 7 cfg0.N = heads (V c main_arg0) (V c main_v1) :=
  (dat0 V c).arrAt_eq_of_cover 7 _ (fun t _ => flushed_k V c t) cover_k
theorem final_v (c : Dev nD) : (dat0 V c).arrAt 8 cfg0.N = headsB (V c main_arg0) (V c main_v2) (V c main_arg5) :=
  (dat0 V c).arrAt_eq_of_cover 8 _ (fun t _ => flushed_v V c t) cover_v

end Cert.KernelIdeal.QkvValue

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.PayAttn.lean ====
/-
  The attention body of one block of 512 query rows, read at one entry.

  The block's program forms, for its 512 query rows against all 4096 key rows of the head, the matrix of scaled scores,
  subtracts each row's maximum, exponentiates, divides each row by its sum, and multiplies the resulting weights by the
  4096 value rows. Read at entry (r, d), on the extended reals, that is the attention of query row r alone over the head's
  keys and values, at lane d: every step is a function of one row of the score matrix, and the leading unit axis of the
  three blocks contributes nothing.
-/
import proofs.«148096_j44581760532548_2_alg».proof.Proof.Spec
import proofs.«148096_j44581760532548_2_alg».proof.Proof.LibContractRows
import proofs.«148096_j44581760532548_2_alg».proof.Proof.LibContractPlain
import proofs.«148096_j44581760532548_2_alg».proof.Proof.LibKeepdims
import proofs.«148096_j44581760532548_2_alg».proof.Proof.LibBlockLayout
import proofs.«148096_j44581760532548_2_alg».proof.Proof.Gen.KernelIdeal.Skeleton

noncomputable section

namespace Cert.Mha.Pay

open Cert.KernelIdeal Cert.KernelIdeal.Gen Cert.Mha Idealize.ShloMosaic Idealize.ShloMosaic.ValueIdx

/-- The exponential, entry by entry. -/
theorem exp_apply {s : Shape} {φ : FTy} (a : FVec Ideal s φ) (i : s.Idx) : exp a i = Ideal.exp (a i) := rfl

/-- The matrix of scaled scores of the block's 512 query rows against the 4096 key rows. -/
def scoreArr (q : FVec Ideal S512x64 .bf16) (k : FVec Ideal S4096x64 .bf16) : FVec Ideal S512x4096 .f32 :=
  mulf (matmul dot_S512x64_S4096x64_S512x4096_1_1_0_0_n_n none q k (constant (F := Ideal) S512x4096 .f32 0x00000000#32))
    (broadcast S512x4096 (Scalar.ofBits (F := Ideal) .f32 0x3E000000#32))

/-- The exponentials of the scores less their row's maximum. -/
def expArr (q : FVec Ideal S512x64 .bf16) (k : FVec Ideal S4096x64 .bf16) : FVec Ideal S512x4096 .f32 :=
  exp (subf (scoreArr q k)
    (broadcastTo S512x4096
      (shapeCast S512x1 (multiReduction .maximumf [1] S512 (scoreArr q k) 0xFF800000#32 reduces_S512x4096_S512 (.inl rfl) rfl)
        shapeCasts_S512_S512x1)
      broadcasts_S512x1_S512x4096))

/-- The exponentials divided by their row's sum. -/
def probArr (q : FVec Ideal S512x64 .bf16) (k : FVec Ideal S4096x64 .bf16) : FVec Ideal S512x4096 .f32 :=
  divf (expArr q k)
    (broadcastTo S512x4096
      (shapeCast S512x1 (multiReduction .add [1] S512 (expArr q k) 0x00000000#32 reduces_S512x4096_S512 (.inl rfl) rfl)
        shapeCasts_S512_S512x1)
      broadcasts_S512x1_S512x4096)

/-- The weights against the value rows. -/
def outArr (q : FVec Ideal S512x64 .bf16) (k v : FVec Ideal S4096x64 .bf16) : FVec Ideal S512x64 .f32 :=
  matmul dot_S512x4096_S4096x64_S512x64_1_0_0_1_n_n none (truncf .bf16 (probArr q k) bitsLt_bf16_f32) v
    (constant (F := Ideal) S512x64 .f32 0x00000000#32)

/-- A vector of 512 row values, laid as a column and repeated along the 4096 columns, reads its row's value. -/
theorem keep_apply (w : FVec Ideal S512 .f32) (p : Fin 512) (j : Fin 4096) :
    broadcastTo S512x4096 (shapeCast S512x1 w shapeCasts_S512_S512x1) broadcasts_S512x1_S512x4096 (ix2 p j) = w (ix1 p) :=
  (Keepdims.broadcastTo_a1_ab_apply _ _ p j).trans (Keepdims.shapeCast_a_a1_apply w _ p 0)

/-- The scaled score matrix at (p, j): row p of the queries against row j of the keys, times 1/8. -/
theorem scoreArr_apply (q : FVec Ideal S512x64 .bf16) (k : FVec Ideal S4096x64 .bf16) (p : Fin 512) (j : Fin 4096) :
    scoreArr q k (ix2 p j) = score (fun e => q (ix2 p e)) (fun j e => k (ix2 j e)) j := by
  unfold scoreArr score
  refine (mulf_apply _ _ _).trans (congrArg₂ (· * ·) ?_ rfl)
  exact ContractRows.matmul_zero_apply none q k p j

/-- The exponentials at (p, j): a function of row p of the scores alone. -/
theorem expArr_apply (q : FVec Ideal S512x64 .bf16) (k : FVec Ideal S4096x64 .bf16) (p : Fin 512) (j : Fin 4096) :
    expArr q k (ix2 p j) = expo (fun e => q (ix2 p e)) (fun j e => k (ix2 j e)) j := by
  unfold expArr expo rowMax
  refine (exp_apply _ _).trans (congrArg Ideal.exp ?_)
  refine (subf_apply _ _ _).trans (congrArg₂ (· - ·) (scoreArr_apply q k p j) ?_)
  refine (keep_apply _ p j).trans ((BlockLayout.multiReduction_max_trailing2 _ _ _ _ _ p).trans ?_)
  exact congrArg (Finset.fold max negInf · Finset.univ) (funext fun j' => scoreArr_apply q k p j')

/-- The weights at (p, j). -/
theorem probArr_apply (q : FVec Ideal S512x64 .bf16) (k : FVec Ideal S4096x64 .bf16) (p : Fin 512) (j : Fin 4096) :
    probArr q k (ix2 p j) = prob (fun e => q (ix2 p e)) (fun j e => k (ix2 j e)) j := by
  unfold probArr prob denom
  refine (divf_apply _ _ _).trans (congrArg₂ Ideal.div (expArr_apply q k p j) ?_)
  refine (keep_apply _ p j).trans ((BlockLayout.multiReduction_add_trailing2 _ _ _ _ _ p).trans ?_)
  exact Finset.sum_congr rfl fun j' _ => expArr_apply q k p j'

/-- The block's output at (p, d): the attention of query row p over the keys and values, at lane d. -/
theorem outArr_apply (q : FVec Ideal S512x64 .bf16) (k v : FVec Ideal S4096x64 .bf16) (p : Fin 512) (d : Fin 64) :
    outArr q k v (ix2 p d)
      = attnRow (fun e => q (ix2 p e)) (fun j e => k (ix2 j e)) (fun j e => v (ix2 j e)) d := by
  unfold outArr attnRow
  refine (Cert.Lib.ContractPlain.matmulZero_apply _ rfl none _ v p d).trans ?_
  exact Finset.sum_congr rfl fun j _ =>
    congrArg (· * v (ix2 j d)) ((truncf_apply (ψ := .bf16) (probArr q k) bitsLt_bf16_f32 (ix2 p j)).trans (probArr_apply q k p j))

/-- The block's program is those four arrays over the three blocks with their unit axis dropped, cast back to a block. -/
theorem pay_eq (x0 : Vec Ideal S1x512x64 .bf16) (x1 x2 : Vec Ideal S1x4096x64 .bf16) :
    k1_pay1 (F := Ideal) x0 x1 x2
      = shapeCast S1x512x64
          (truncf .bf16
            (outArr (shapeCast S512x64 x0 shapeCasts_S1x512x64_S512x64) (shapeCast S4096x64 x1 shapeCasts_S1x4096x64_S4096x64)
              (shapeCast S4096x64 x2 shapeCasts_S1x4096x64_S4096x64))
            bitsLt_bf16_f32)
          shapeCasts_S512x64_S1x512x64 := rfl

/-- The attention block at entry (u, r, d) is the attention of row r of the query block over the key and value blocks. -/
theorem pay_attn (x0 : Vec Ideal S1x512x64 .bf16) (x1 x2 : Vec Ideal S1x4096x64 .bf16) (u : Fin 1) (r : Fin 512) (d : Fin 64) :
    k1_pay1 (F := Ideal) x0 x1 x2 (ix3 u r d)
      = attnRow (fun e => x0 (ix3 (0 : Fin 1) r e)) (fun j e => x1 (ix3 (0 : Fin 1) j e)) (fun j e => x2 (ix3 (0 : Fin 1) j e)) d := by
  refine (congrFun (pay_eq x0 x1 x2) _).trans ?_
  refine (shapeCast_ab_1ab_apply _ _ u r d).trans ?_
  refine (truncf_apply (ψ := .bf16) _ bitsLt_bf16_f32 _).trans ?_
  refine (outArr_apply _ _ _ r d).trans ?_
  have hq : (fun e => shapeCast S512x64 x0 shapeCasts_S1x512x64_S512x64 (ix2 r e)) = fun e => x0 (ix3 (0 : Fin 1) r e) :=
    funext fun e => shapeCast_1ab_ab_apply x0 _ r e
  have hk : (fun j e => shapeCast S4096x64 x1 shapeCasts_S1x4096x64_S4096x64 (ix2 j e)) = fun j e => x1 (ix3 (0 : Fin 1) j e) :=
    funext fun j => funext fun e => shapeCast_1ab_ab_apply x1 _ j e
  have hv : (fun j e => shapeCast S4096x64 x2 shapeCasts_S1x4096x64_S4096x64 (ix2 j e)) = fun j e => x2 (ix3 (0 : Fin 1) j e) :=
    funext fun j => funext fun e => shapeCast_1ab_ab_apply x2 _ j e
  rw [hq, hk, hv]

end Cert.Mha.Pay

end
-- ==== Proof.KAttn.lean ====
/-
  The second region, read as one array: after it the attention buffer holds the attention of the three head-major
  arrays the region finds.

  The region runs 16 × 8 points; point t works on head t / 8 and on rows 512·(t % 8) … of that head. Its query and
  output blocks are that band of 512 rows of the head; its key and value blocks are the head's whole 4096 rows. So
  every block the body loads is a restriction of a whole array, and what the body stores at an entry of its block is
  the row-level attention of the specification, at the row the entry sits in. The output blocks tile the array — entry
  (h, r, d) lies in the block of point 8·h + r / 512 — so the array ends holding that one function everywhere.
-/
import proofs.«148096_j44581760532548_2_alg».proof.Proof.PayAttn
import proofs.«148096_j44581760532548_2_alg».proof.Proof.Spec
import proofs.«148096_j44581760532548_2_alg».proof.Proof.Gen.KernelIdeal.Frame
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.Mha
open Idealize.ShloMosaic Idealize.ShloMosaic.TcCoe Idealize.ShloMosaic.ValueIdx Idealize.SL.Sem
open Idealize.ShloMosaic.Pipeline (Dat Cfg Window)
open Cert.Mha.Pay

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the 16 × 8 points, point `t` being head `t / 8`, row band `t % 8`: the query and the
    output windows take that head's band of 512 rows, the key and value windows that head's whole 4096 rows. -/
theorem idx_facts : ∀ t : Fin cfg1.N, win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- One entry of a block of the attention output, from blocks that are restrictions of the whole head-major arrays:
    the query block is rows 512·qq … of head hh, the key and value blocks all rows of head hh. -/
theorem attn_point (Q K Vl : Heads.Idx → EReal)
    (x0 : Vec Ideal S1x512x64 .bf16) (x1 x2 : Vec Ideal S1x4096x64 .bf16)
    (j : S1x512x64.Idx) (i : S16x4096x64.Idx) (hh qq : Nat)
    (hi0 : (i 0).val = hh * 1 + (j 0).val) (hi1 : (i 1).val = qq * 512 + (j 1).val) (hi2 : (i 2).val = (j 2).val)
    (h0 : ∀ (r : Fin 512) (e : Fin 64) (h' : Fin 16) (r' : Fin 4096), h'.val = hh → r'.val = qq * 512 + r.val →
      x0 (ix3 (0 : Fin 1) r e) = Q (ix3 h' r' e))
    (h1 : ∀ (jj : Fin 4096) (e : Fin 64) (h' : Fin 16), h'.val = hh → x1 (ix3 (0 : Fin 1) jj e) = K (ix3 h' jj e))
    (h2 : ∀ (jj : Fin 4096) (e : Fin 64) (h' : Fin 16), h'.val = hh → x2 (ix3 (0 : Fin 1) jj e) = Vl (ix3 h' jj e)) :
    k1_pay1 (F := Ideal) x0 x1 x2 j = attn Q K Vl i := by
  obtain ⟨u, r, d, rfl⟩ : ∃ (u : Fin 1) (r : Fin 512) (d : Fin 64), j = ix3 u r d := ⟨j 0, j 1, j 2, eq_ix3 j⟩
  obtain ⟨h', r', d', rfl⟩ : ∃ (h' : Fin 16) (r' : Fin 4096) (d' : Fin 64), i = ix3 h' r' d' := ⟨i 0, i 1, i 2, eq_ix3 i⟩
  have hu : u.val = 0 := by have := u.isLt; omega
  have eh : h'.val = hh := by have : h'.val = hh * 1 + u.val := hi0; omega
  have ed : d' = d := Fin.ext hi2
  subst ed
  rw [pay_attn, attn_ix3]
  unfold attnAt
  have ea : (fun e => x0 (ix3 (0 : Fin 1) r e)) = fun e => Q (ix3 h' r' e) := funext fun e => h0 r e h' r' eh hi1
  have eb : (fun jj e => x1 (ix3 (0 : Fin 1) jj e)) = fun jj e => K (ix3 h' jj e) := funext fun jj => funext fun e => h1 jj e h' eh
  have ec : (fun jj e => x2 (ix3 (0 : Fin 1) jj e)) = fun jj e => Vl (ix3 h' jj e) := funext fun jj => funext fun e => h2 jj e h' eh
  rw [ea, eb, ec]

/-- WHAT POINT `t` WRITES BACK is block `t` of the attention of the three head-major arrays the region finds. -/
theorem flushed_eq (c : Dev nD) (t : Fin cfg1.N) :
    (dat1 V c).flushed 3 t = ((cfg1.win 3).blk t).view.read (Elt Ideal) (attn (V c main_v4_0) (V c main_v4_1) (V c main_v4_2)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x4096x64) hz3]
  obtain ⟨e0, e1, e2, e3, e4, e5, e6, e7, e8, e9, e10, e11⟩ := idx_facts t
  funext j
  refine attn_point (V c main_v4_0) (V c main_v4_1) (V c main_v4_2) _ _ _ j (((cfg1.win 3).blk t).view.emb j) (t.val / 8) (t.val % 8) ?_ ?_ ?_ ?_ ?_ ?_
  · show win1_3.index t (0 : Fin 3) * 1 + 1 * (j 0).val = _; omega
  · show win1_3.index t (1 : Fin 3) * 512 + 1 * (j 1).val = _; omega
  · show win1_3.index t (2 : Fin 3) * 64 + 1 * (j 2).val = _; omega
  · intro r e h' r' hh' hr'
    show V c main_v4_0 (((cfg1.win 0).blk t).view.emb (ix3 (0 : Fin 1) r e)) = V c main_v4_0 (ix3 h' r' e)
    refine congrArg (V c main_v4_0) (funext fun a => Fin.ext ?_)
    match a with
    | ⟨0, _⟩ => show win1_0.index t (0 : Fin 3) * 1 + 1 * 0 = h'.val; omega
    | ⟨1, _⟩ => show win1_0.index t (1 : Fin 3) * 512 + 1 * r.val = r'.val; omega
    | ⟨2, _⟩ => show win1_0.index t (2 : Fin 3) * 64 + 1 * e.val = e.val; omega
  · intro jj e h' hh'
    show V c main_v4_1 (((cfg1.win 1).blk t).view.emb (ix3 (0 : Fin 1) jj e)) = V c main_v4_1 (ix3 h' jj e)
    refine congrArg (V c main_v4_1) (funext fun a => Fin.ext ?_)
    match a with
    | ⟨0, _⟩ => show win1_1.index t (0 : Fin 3) * 1 + 1 * 0 = h'.val; omega
    | ⟨1, _⟩ => show win1_1.index t (1 : Fin 3) * 4096 + 1 * jj.val = jj.val; omega
    | ⟨2, _⟩ => show win1_1.index t (2 : Fin 3) * 64 + 1 * e.val = e.val; omega
  · intro jj e h' hh'
    show V c main_v4_2 (((cfg1.win 2).blk t).view.emb (ix3 (0 : Fin 1) jj e)) = V c main_v4_2 (ix3 h' jj e)
    refine congrArg (V c main_v4_2) (funext fun a => Fin.ext ?_)
    match a with
    | ⟨0, _⟩ => show win1_2.index t (0 : Fin 3) * 1 + 1 * 0 = h'.val; omega
    | ⟨1, _⟩ => show win1_2.index t (1 : Fin 3) * 4096 + 1 * jj.val = jj.val; omega
    | ⟨2, _⟩ => show win1_2.index t (2 : Fin 3) * 64 + 1 * e.val = e.val; omega

/-- An index of the head-major output is in point `t`'s block iff each coordinate is in the block's range on its axis. -/
theorem mem_blk (t : Fin cfg1.N) (i : S16x4096x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v5).slice (win1_3.rect t)).set ↔ _
  rw [View.set_slice_whole, Rect.mem_set_unit]
  exact Iff.rfl

/-- Entry (h, r, d) lies in the block of the point 8·h + r / 512. -/
theorem cover (i : S16x4096x64.Idx) : ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  refine ⟨⟨(i 0).val * 8 + (i 1).val / 512, by show _ < 128; omega⟩, flush1_3 _, ?_⟩
  rw [mem_blk]
  obtain ⟨-, -, -, -, -, -, -, -, -, e9, e10, e11⟩ := idx_facts ⟨(i 0).val * 8 + (i 1).val / 512, by show _ < 128; omega⟩
  intro a
  match a with
  | ⟨0, _⟩ =>
    show win1_3.index _ (0 : Fin 3) * 1 ≤ (i 0).val ∧ (i 0).val < win1_3.index _ (0 : Fin 3) * 1 + 1
    rw [e9]; show ((i 0).val * 8 + (i 1).val / 512) / 8 * 1 ≤ _ ∧ _ < ((i 0).val * 8 + (i 1).val / 512) / 8 * 1 + 1; omega
  | ⟨1, _⟩ =>
    show win1_3.index _ (1 : Fin 3) * 512 ≤ (i 1).val ∧ (i 1).val < win1_3.index _ (1 : Fin 3) * 512 + 512
    rw [e10]; show ((i 0).val * 8 + (i 1).val / 512) % 8 * 512 ≤ _ ∧ _ < ((i 0).val * 8 + (i 1).val / 512) % 8 * 512 + 512; omega
  | ⟨2, _⟩ =>
    show win1_3.index _ (2 : Fin 3) * 64 ≤ (i 2).val ∧ (i 2).val < win1_3.index _ (2 : Fin 3) * 64 + 64
    rw [e11]; omega

/-- The attention output after the second region: the attention of the three arrays the region finds. -/
theorem final (c : Dev nD) : (dat1 V c).arrAt 3 cfg1.N = attn (V c main_v4_0) (V c main_v4_1) (V c main_v4_2) :=
  (dat1 V c).arrAt_eq_of_cover 3 _ (fun t _ => flushed_eq V c t) cover

end Cert.KernelIdeal.AttnValue

end
-- ==== Proof.KOut.lean ====
/-
  The third region, read as one array: after it the result holds the output projection of the attention buffer, the
  cast output weight and the output bias, as the region finds them.

  The region runs 8 points; point t works on token rows 512·t … Its head-major input block is that band of rows of
  every head; the weight and the bias are fetched whole. What the body stores at entry (r, c) is row r of the merged
  heads against row c of the weight, plus the bias entry c. The output blocks tile the result by bands of 512 rows.
-/
import proofs.«148096_j44581760532548_2_alg».proof.Proof.PayProj
import proofs.«148096_j44581760532548_2_alg».proof.Proof.Spec
import proofs.«148096_j44581760532548_2_alg».proof.Proof.Gen.KernelIdeal.Frame
import Idealize.ShloMosaic.Lib.Pipeline.Value
import Idealize.ShloMosaic.Lib.ValueIdx

set_option maxRecDepth 16384

noncomputable section

namespace Cert.KernelIdeal.OutValue

open Cert.KernelIdeal Cert.KernelIdeal.Gen Cert.Mha
open Idealize.ShloMosaic Idealize.ShloMosaic.TcCoe Idealize.ShloMosaic.ValueIdx Idealize.SL.Sem
open Idealize.ShloMosaic.Pipeline (Dat Cfg Window)

open Cert.Mha.Pay

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the eight points: the head-major input and the output move one band of 512 rows per
    point; the weight and the bias are fetched whole. -/
theorem idx_facts : ∀ t : Fin cfg2.N, win2_0.index t (0 : Fin 3) = 0 ∧ win2_0.index t (1 : Fin 3) = t.val ∧ win2_0.index t (2 : Fin 3) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- One entry of a block of the output, from blocks that are restrictions of the whole arrays. -/
theorem out_point (O : Heads.Idx → EReal) (Wo : Wt.Idx → EReal) (Bo : Bias.Idx → EReal)
    (x0 : Vec Ideal S16x512x64 .bf16) (x1 : Vec Ideal S1024x1024 .bf16) (x2 : Vec Ideal S1024 .f32)
    (j : S512x1024.Idx) (i : S4096x1024.Idx) (n : Nat)
    (hi0 : (i 0).val = n * 512 + (j 0).val) (hi1 : (i 1).val = (j 1).val)
    (h0 : ∀ (h : Fin 16) (r : Fin 512) (d : Fin 64) (r' : Fin 4096), r'.val = n * 512 + r.val → x0 (ix3 h r d) = O (ix3 h r' d))
    (h1 : x1 = Wo) (h2 : x2 = Bo) :
    k2_pay1 (F := Ideal) x0 x1 x2 j = outProj O Wo Bo i := by
  obtain ⟨r, cc, rfl⟩ : ∃ (r : Fin 512) (cc : Fin 1024), j = ix2 r cc := ⟨j 0, j 1, eq_ix2 j⟩
  obtain ⟨r', c', rfl⟩ : ∃ (r' : Fin 4096) (c' : Fin 1024), i = ix2 r' c' := ⟨i 0, i 1, eq_ix2 i⟩
  have ec : c' = cc := Fin.ext hi1
  subst ec h1 h2
  rw [pay_out, outProj_ix2]
  unfold outAt
  refine congrArg (· + x2 (ix1 c')) (Finset.sum_congr rfl fun k _ => ?_)
  rw [h0 (headOf k) r (laneOf k) r' hi0]

/-- WHAT POINT `t` WRITES BACK is block `t` of the output projection of the arrays the region finds. -/
theorem flushed_eq (c : Dev nD) (t : Fin cfg2.N) :
    (dat2 V c).flushed 3 t = ((cfg2.win 3).blk t).view.read (Elt Ideal) (outProj (V c main_v5) (V c main_v3) (V c main_arg7)) := by
  show (cfg2.win 3).cut (grid2.coords t) ((dat2 V c).after 3 t) = _
  rw [after2_3]
  unfold out2_3
  rw [View.canon_unit_zero hz2]
  simp only [View.ld_unit_zero (S := S16x512x64) hz3, View.ld_unit_zero (S := S1024x1024) hz2, View.ld_unit_zero (S := S1024) hz1]
  obtain ⟨e0, e1, e2, e3, e4, e5, e6, e7⟩ := idx_facts t
  funext j
  refine out_point (V c main_v5) (V c main_v3) (V c main_arg7) _ _ _ j (((cfg2.win 3).blk t).view.emb j) t.val ?_ ?_ ?_ ?_ ?_
  · show win2_3.index t (0 : Fin 2) * 512 + 1 * (j 0).val = _
    omega
  · show win2_3.index t (1 : Fin 2) * 1024 + 1 * (j 1).val = _
    omega
  · intro h r d r' hr
    show V c main_v5 (((cfg2.win 0).blk t).view.emb (ix3 h r d)) = V c main_v5 (ix3 h r' d)
    refine congrArg (V c main_v5) (funext fun a => Fin.ext ?_)
    match a with
    | ⟨0, _⟩ => show win2_0.index t (0 : Fin 3) * 16 + 1 * h.val = h.val; omega
    | ⟨1, _⟩ => show win2_0.index t (1 : Fin 3) * 512 + 1 * r.val = r'.val; omega
    | ⟨2, _⟩ => show win2_0.index t (2 : Fin 3) * 64 + 1 * d.val = d.val; omega
  · funext y
    show V c main_v3 (((cfg2.win 1).blk t).view.emb y) = V c main_v3 y
    refine congrArg (V c main_v3) (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · funext y
    show V c main_arg7 (((cfg2.win 2).blk t).view.emb y) = V c main_arg7 y
    refine congrArg (V c main_arg7) (funext fun a => Fin.ext ?_)
    match a with
    | ⟨0, _⟩ => show win2_2.index t (0 : Fin 1) * 1024 + 1 * (y 0).val = (y 0).val; omega

/-- An index of the result is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- Every row of the result lies in the block of the point numbered by the row's 512-row band. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  refine ⟨⟨(i 0).val / 512, by show _ < 8; omega⟩, flush2_3 _, ?_⟩
  rw [mem_blk]
  obtain ⟨-, -, -, -, -, -, e6, e7⟩ := idx_facts ⟨(i 0).val / 512, by show _ < 8; omega⟩
  intro a
  match a with
  | ⟨0, _⟩ =>
    show win2_3.index _ (0 : Fin 2) * 512 ≤ (i 0).val ∧ (i 0).val < win2_3.index _ (0 : Fin 2) * 512 + 512
    rw [e6]; show (i 0).val / 512 * 512 ≤ _ ∧ _ < (i 0).val / 512 * 512 + 512; omega
  | ⟨1, _⟩ =>
    show win2_3.index _ (1 : Fin 2) * 1024 ≤ (i 1).val ∧ (i 1).val < win2_3.index _ (1 : Fin 2) * 1024 + 1024
    rw [e7]; omega

/-- The result array after the third region: the output projection of the three arrays the region finds. -/
theorem final (c : Dev nD) : (dat2 V c).arrAt 3 cfg2.N = outProj (V c main_v5) (V c main_v3) (V c main_arg7) :=
  (dat2 V c).arrAt_eq_of_cover 3 _ (fun t _ => flushed_eq V c t) cover

end Cert.KernelIdeal.OutValue

end
-- ==== Proof.KValue.lean ====
/-
  The idealized kernel's result as one function of its eight arguments.

  The run leaves in the result array what the fold of the four segments leaves there. Unfolding the fold from the end:
  the third region's array is the output projection of what it finds in the attention buffer, in the cast output weight
  and in the output bias; the attention buffer was written by the second region, and holds the attention of the three
  head-major buffers; those were written by the first region, and hold the three projections of the tokens by the cast
  weights and the biases; a cast weight is the weight itself, a change of float format being the identity on the
  extended reals; and a buffer no segment writes holds what it held at launch. Composed, the result is the
  specification's `model` of the eight launch arrays.
-/
import proofs.«148096_j44581760532548_2_alg».proof.Proof.Spec
import proofs.«148096_j44581760532548_2_alg».proof.Proof.KRun
import proofs.«148096_j44581760532548_2_alg».proof.Proof.KQkv
import proofs.«148096_j44581760532548_2_alg».proof.Proof.KAttn
import proofs.«148096_j44581760532548_2_alg».proof.Proof.KOut
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.Mha
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the first region finds: the four casts are the identity, the arguments are as launched -/

/-- The query weight's cast to the narrower format is the query weight. -/
theorem V1_v0 (c : Dev nD) : (V1 m ρ c main_v0 : S1024x1024.Idx → EReal) = (m ((c : Thread nD τ).loc main_arg1) : S1024x1024.Idx → EReal) := by
  show StableHlo.after hostOps0 (W0 m ρ c) (Proc.devRef .tc main_v0) = _
  after_results
  rfl
/-- The key weight's cast is the key weight. -/
theorem V1_v1 (c : Dev nD) : (V1 m ρ c main_v1 : S1024x1024.Idx → EReal) = (m ((c : Thread nD τ).loc main_arg3) : S1024x1024.Idx → EReal) := by
  show StableHlo.after hostOps0 (W0 m ρ c) (Proc.devRef .tc main_v1) = _
  after_results
  rfl
/-- The value weight's cast is the value weight. -/
theorem V1_v2 (c : Dev nD) : (V1 m ρ c main_v2 : S1024x1024.Idx → EReal) = (m ((c : Thread nD τ).loc main_arg4) : S1024x1024.Idx → EReal) := by
  show StableHlo.after hostOps0 (W0 m ρ c) (Proc.devRef .tc main_v2) = _
  after_results
  rfl
/-- The output weight's cast is the output weight. -/
theorem V1_v3 (c : Dev nD) : (V1 m ρ c main_v3 : S1024x1024.Idx → EReal) = (m ((c : Thread nD τ).loc main_arg6) : S1024x1024.Idx → EReal) := by
  show StableHlo.after hostOps0 (W0 m ρ c) (Proc.devRef .tc main_v3) = _
  after_results
  rfl
/-- The casts write none of the arguments the regions read. -/
theorem V1_arg0 (c : Dev nD) : (V1 m ρ c main_arg0 : S4096x1024.Idx → EReal) = (m ((c : Thread nD τ).loc main_arg0) : S4096x1024.Idx → EReal) := by
  show StableHlo.after hostOps0 (W0 m ρ c) (Proc.devRef .tc main_arg0) = _
  after_results
theorem V1_arg2 (c : Dev nD) : (V1 m ρ c main_arg2 : S1024.Idx → EReal) = (m ((c : Thread nD τ).loc main_arg2) : S1024.Idx → EReal) := by
  show StableHlo.after hostOps0 (W0 m ρ c) (Proc.devRef .tc main_arg2) = _
  after_results
theorem V1_arg5 (c : Dev nD) : (V1 m ρ c main_arg5 : S1024.Idx → EReal) = (m ((c : Thread nD τ).loc main_arg5) : S1024.Idx → EReal) := by
  show StableHlo.after hostOps0 (W0 m ρ c) (Proc.devRef .tc main_arg5) = _
  after_results
theorem V1_arg7 (c : Dev nD) : (V1 m ρ c main_arg7 : S1024.Idx → EReal) = (m ((c : Thread nD τ).loc main_arg7) : S1024.Idx → EReal) := by
  show StableHlo.after hostOps0 (W0 m ρ c) (Proc.devRef .tc main_arg7) = _
  after_results

/-! ## What the second region finds: the three projections -/

/-- The query buffer after the first region. -/
theorem V2_q (c : Dev nD) : V2 m ρ c main_v4_0 = headsB (m ((c : Thread nD τ).loc main_arg0)) (m ((c : Thread nD τ).loc main_arg1)) (m ((c : Thread nD τ).loc main_arg2)) := by
  refine (W2_arr m ρ c 6).trans ?_
  rw [QkvValue.final_q (V1 m ρ) c, V1_arg0, V1_v0, V1_arg2]
/-- The key buffer after the first region. -/
theorem V2_k (c : Dev nD) : V2 m ρ c main_v4_1 = heads (m ((c : Thread nD τ).loc main_arg0)) (m ((c : Thread nD τ).loc main_arg3)) := by
  refine (W2_arr m ρ c 7).trans ?_
  rw [QkvValue.final_k (V1 m ρ) c, V1_arg0, V1_v1]
/-- The value buffer after the first region. -/
theorem V2_v (c : Dev nD) : V2 m ρ c main_v4_2 = headsB (m ((c : Thread nD τ).loc main_arg0)) (m ((c : Thread nD τ).loc main_arg4)) (m ((c : Thread nD τ).loc main_arg5)) := by
  refine (W2_arr m ρ c 8).trans ?_
  rw [QkvValue.final_v (V1 m ρ) c, V1_arg0, V1_v2, V1_arg5]

/-! ## What the third region finds: the attention output, and two buffers the first two regions leave alone -/

/-- The attention buffer after the second region. -/
theorem V3_o (c : Dev nD) : V3 m ρ c main_v5
    = attn (headsB (m ((c : Thread nD τ).loc main_arg0)) (m ((c : Thread nD τ).loc main_arg1)) (m ((c : Thread nD τ).loc main_arg2))) (heads (m ((c : Thread nD τ).loc main_arg0)) (m ((c : Thread nD τ).loc main_arg3))) (headsB (m ((c : Thread nD τ).loc main_arg0)) (m ((c : Thread nD τ).loc main_arg4)) (m ((c : Thread nD τ).loc main_arg5))) := by
  refine (W3_arr m ρ c 3).trans ?_
  rw [AttnValue.final (V2 m ρ) c, V2_q, V2_k, V2_v]
/-- The cast output weight is none of the first two regions' arrays. -/
theorem V3_v3 (c : Dev nD) : (V3 m ρ c main_v3 : S1024x1024.Idx → EReal) = (m ((c : Thread nD τ).loc main_arg6)) :=
  ((W3_of_ne m ρ c main_v3 (by decide)).trans (W2_of_ne m ρ c main_v3 (by decide))).trans (V1_v3 m ρ c)
/-- Nor is the output bias. -/
theorem V3_arg7 (c : Dev nD) : (V3 m ρ c main_arg7 : S1024.Idx → EReal) = (m ((c : Thread nD τ).loc main_arg7)) :=
  ((W3_of_ne m ρ c main_arg7 (by decide)).trans (W2_of_ne m ρ c main_arg7 (by decide))).trans (V1_arg7 m ρ c)

/-! ## The result -/

/-- The result array after the run is the attention layer of the eight launch arrays. -/
theorem value (c : Dev nD) : (W4 m ρ c (Proc.devRef .tc main_v6) : S4096x1024.Idx → EReal)
    = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 3).trans ?_
  rw [OutValue.final (V3 m ρ) c, V3_o, V3_v3, V3_arg7]
  rfl

end Cert.KernelIdeal.Whole

end
-- ==== Proof.RefValue.lean ====
/-
  The reference program, stage by stage, is the attention layer of the specification: each of its arrays, read at an
  index given by coordinates, is the corresponding function of the specification.
-/
import proofs.«148096_j44581760532548_2_alg».proof.Proof.Spec
import proofs.«148096_j44581760532548_2_alg».proof.Proof.LibBlockLayout
import proofs.«148096_j44581760532548_2_alg».proof.Proof.Gen.ReferenceIdeal.Read
import Idealize.ShloMosaic.PureOps.Reduce
import Idealize.ShloMosaic.Lib.ValueIdx

noncomputable section

namespace Cert.Mha.Ref

open Idealize.ShloMosaic Idealize.ShloMosaic.ValueIdx Cert.ReferenceIdeal Cert.ReferenceIdeal.Read Cert.Mha

/-! ## Index arithmetic -/

/-- Position (r, h, d) of the [4096, 16, 64] layout is position (r, 64·h + d) of the [4096, 1024] one. -/
theorem split_div (r : Fin 4096) (h : Fin 16) (d : Fin 64) : ((r.val * 16 + h.val) * 64 + d.val) / 1024 = r.val := by
  have := r.isLt; have := h.isLt; have := d.isLt; omega

theorem split_mod (r : Fin 4096) (h : Fin 16) (d : Fin 64) :
    ((r.val * 16 + h.val) * 64 + d.val) % 1024 = h.val * 64 + d.val := by
  have := r.isLt; have := h.isLt; have := d.isLt; omega

/-! ## Stage 1: the three projections, head-major -/

theorem idx_v5_v6 (h : Fin 16) (r : Fin 4096) (d : Fin 64) :
    idx_main_v5 (idx_main_v6 (ix3 h r d)) = ix2 r (col h d) :=
  funext fun a => Fin.ext (by
    match a with
    | ⟨0, _⟩ => exact split_div r h d
    | ⟨1, _⟩ => exact split_mod r h d)

theorem lidx_v1 (r : Fin 4096) (c k : Fin 1024) : lidx_main_v1 (ix2 r c) k = ix2 r k :=
  funext fun a => Fin.ext (by match a with | ⟨0, _⟩ => rfl | ⟨1, _⟩ => rfl)

theorem ridx_v1 (r : Fin 4096) (c k : Fin 1024) : idx_main_v0 (ridx_main_v1 (ix2 r c) k) = ix2 c k :=
  funext fun a => Fin.ext (by match a with | ⟨0, _⟩ => rfl | ⟨1, _⟩ => rfl)

theorem bidx_v3 (r : Fin 4096) (c : Fin 1024) : idx_main_v2 (idx_main_v3 (ix2 r c)) = ix1 c :=
  funext fun a => Fin.ext (by match a with | ⟨0, _⟩ => rfl)

/-- The projection with bias, re-laid head-major, is the specification's. -/
theorem v6_eq (x : (⟨S4096x1024, .f32⟩ : BufTy).Contents (Elt Ideal)) (w : (⟨S1024x1024, .f32⟩ : BufTy).Contents (Elt Ideal))
    (b : (⟨S1024, .f32⟩ : BufTy).Contents (Elt Ideal)) :
    val_main_v6 (F := Ideal) x w b = headsB x w b := by
  funext i
  obtain ⟨h, r, d, rfl⟩ : ∃ (h : Fin 16) (r : Fin 4096) (d : Fin 64), i = ix3 h r d := ⟨i 0, i 1, i 2, eq_ix3 i⟩
  rw [val_main_v6_apply, val_main_v5_apply, idx_v5_v6, val_main_v4_apply, val_main_v1_apply, val_main_v3_apply,
    val_main_v2_apply, bidx_v3, headsB_ix3]
  simp only [lidx_v1, val_main_v0_apply, ridx_v1]
  rfl

theorem idx_v9_v10 (h : Fin 16) (r : Fin 4096) (d : Fin 64) :
    idx_main_v9 (idx_main_v10 (ix3 h r d)) = ix2 r (col h d) :=
  funext fun a => Fin.ext (by
    match a with
    | ⟨0, _⟩ => exact split_div r h d
    | ⟨1, _⟩ => exact split_mod r h d)

theorem lidx_v8 (r : Fin 4096) (c k : Fin 1024) : lidx_main_v8 (ix2 r c) k = ix2 r k :=
  funext fun a => Fin.ext (by match a with | ⟨0, _⟩ => rfl | ⟨1, _⟩ => rfl)

theorem ridx_v8 (r : Fin 4096) (c k : Fin 1024) : idx_main_v7 (ridx_main_v8 (ix2 r c) k) = ix2 c k :=
  funext fun a => Fin.ext (by match a with | ⟨0, _⟩ => rfl | ⟨1, _⟩ => rfl)

/-- The projection without bias, re-laid head-major, is the specification's. -/
theorem v10_eq (x : (⟨S4096x1024, .f32⟩ : BufTy).Contents (Elt Ideal)) (w : (⟨S1024x1024, .f32⟩ : BufTy).Contents (Elt Ideal)) :
    val_main_v10 (F := Ideal) x w = heads x w := by
  funext i
  obtain ⟨h, r, d, rfl⟩ : ∃ (h : Fin 16) (r : Fin 4096) (d : Fin 64), i = ix3 h r d := ⟨i 0, i 1, i 2, eq_ix3 i⟩
  rw [val_main_v10_apply, val_main_v9_apply, idx_v9_v10, val_main_v8_apply, heads_ix3]
  simp only [lidx_v8, val_main_v7_apply, ridx_v8]
  rfl

theorem idx_v16_v17 (h : Fin 16) (r : Fin 4096) (d : Fin 64) :
    idx_main_v16 (idx_main_v17 (ix3 h r d)) = ix2 r (col h d) :=
  funext fun a => Fin.ext (by
    match a with
    | ⟨0, _⟩ => exact split_div r h d
    | ⟨1, _⟩ => exact split_mod r h d)

theorem lidx_v12 (r : Fin 4096) (c k : Fin 1024) : lidx_main_v12 (ix2 r c) k = ix2 r k :=
  funext fun a => Fin.ext (by match a with | ⟨0, _⟩ => rfl | ⟨1, _⟩ => rfl)

theorem ridx_v12 (r : Fin 4096) (c k : Fin 1024) : idx_main_v11 (ridx_main_v12 (ix2 r c) k) = ix2 c k :=
  funext fun a => Fin.ext (by match a with | ⟨0, _⟩ => rfl | ⟨1, _⟩ => rfl)

theorem bidx_v14 (r : Fin 4096) (c : Fin 1024) : idx_main_v13 (idx_main_v14 (ix2 r c)) = ix1 c :=
  funext fun a => Fin.ext (by match a with | ⟨0, _⟩ => rfl)

/-- The projection with bias, re-laid head-major, is the specification's. -/
theorem v17_eq (x : (⟨S4096x1024, .f32⟩ : BufTy).Contents (Elt Ideal)) (w : (⟨S1024x1024, .f32⟩ : BufTy).Contents (Elt Ideal))
    (b : (⟨S1024, .f32⟩ : BufTy).Contents (Elt Ideal)) :
    val_main_v17 (F := Ideal) x w b = headsB x w b := by
  funext i
  obtain ⟨h, r, d, rfl⟩ : ∃ (h : Fin 16) (r : Fin 4096) (d : Fin 64), i = ix3 h r d := ⟨i 0, i 1, i 2, eq_ix3 i⟩
  rw [val_main_v17_apply, val_main_v16_apply, idx_v16_v17, val_main_v15_apply, val_main_v12_apply, val_main_v14_apply,
    val_main_v13_apply, bidx_v14, headsB_ix3]
  simp only [lidx_v12, val_main_v11_apply, ridx_v12]
  rfl

/-! ## Stage 2: scores, row maxima, exponentials, weights -/

section Scores

variable (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal))

/-- Query row (h, r), as a function of the lane. -/
abbrev qRow (h : Fin 16) (r : Fin 4096) : Fin 64 → EReal := fun e => headsB x0 x1 x2 (ix3 h r e)
/-- The key rows of head h, as a function of the row and the lane. -/
abbrev kRows (h : Fin 16) : Fin 4096 → Fin 64 → EReal := fun j e => heads x0 x3 (ix3 h j e)

theorem lidx_v18 (h : Fin 16) (r j : Fin 4096) (k : Fin 64) : lidx_main_v18 (ix3 h r j) k = ix3 h r k :=
  funext fun a => Fin.ext (by match a with | ⟨0, _⟩ => rfl | ⟨1, _⟩ => rfl | ⟨2, _⟩ => rfl)

theorem ridx_v18 (h : Fin 16) (r j : Fin 4096) (k : Fin 64) : ridx_main_v18 (ix3 h r j) k = ix3 h j k :=
  funext fun a => Fin.ext (by match a with | ⟨0, _⟩ => rfl | ⟨1, _⟩ => rfl | ⟨2, _⟩ => rfl)

/-- The scaled product of the queries and the keys, at (h, r, j), is the score of query row (h, r) against key row j. -/
theorem v20_apply (h : Fin 16) (r j : Fin 4096) :
    val_main_v20 (F := Ideal) x0 x1 x2 x3 (ix3 h r j) = score (qRow x0 x1 x2 h r) (kRows x0 x3 h) j := by
  rw [val_main_v20_apply, val_main_v18_apply, val_main_v19_apply, val_main_cst_apply, v6_eq, v10_eq]
  simp only [lidx_v18, ridx_v18]
  rfl

/-- The word of -∞ is the least value: a maximum with it is the other operand. -/
theorem negInf_max (y : Ideal .f32) : max (Ideal.ofBits .f32 0xFF800000#32) y = y := by
  simp [Ideal.ofBits, Ideal.ieee]

/-- The maximum over the key axis, at (h, r), is the row's largest score. -/
theorem v21_apply (h : Fin 16) (r : Fin 4096) :
    val_main_v21 (F := Ideal) x0 x1 x2 x3 (ix2 h r) = rowMax (qRow x0 x1 x2 h r) (kRows x0 x3 h) := by
  have hT := Facts₀.reducesTo_S16x4096x4096_S16x4096_d2
  have hR : S16x4096x4096.Reduces [2] S16x4096 := ⟨hT.1, by decide, hT.2⟩
  unfold val_main_v21
  refine (Host.reduce_eq_fold_single FloatOps.maximumf _ _ hT hR Facts₀.h_S_ (ix2 h r)).trans ?_
  have hf : (val_main_v20 (F := Ideal) x0 x1 x2 x3 ∘ hR.lift (ix2 h r))
      = fun j : Fin 4096 => score (qRow x0 x1 x2 h r) (kRows x0 x3 h) j :=
    funext fun k => by
      show val_main_v20 (F := Ideal) x0 x1 x2 x3 (hR.lift (ix2 h r) k) = _
      rw [Cert.BlockLayout.lift_trailing3 hR h r k]
      exact v20_apply x0 x1 x2 x3 h r k
  exact congrArg (fun f => Finset.fold max (Ideal.ofBits .f32 0xFF800000#32) f (Finset.univ : Finset (Fin 4096))) hf

/-- A further maximum with -∞ changes nothing. -/
theorem v23_apply (h : Fin 16) (r : Fin 4096) :
    val_main_v23 (F := Ideal) x0 x1 x2 x3 (ix2 h r) = rowMax (qRow x0 x1 x2 h r) (kRows x0 x3 h) := by
  rw [val_main_v23_apply, val_main_v22_apply, val_main_cst_1_apply, v21_apply]
  exact negInf_max _

theorem idx_v24_v25 (h : Fin 16) (r j : Fin 4096) : idx_main_v24 (idx_main_v25 (ix3 h r j)) = ix2 h r :=
  funext fun a => Fin.ext (by match a with | ⟨0, _⟩ => rfl | ⟨1, _⟩ => rfl)

/-- The exponential of a score less its row's maximum. -/
theorem v27_apply (h : Fin 16) (r j : Fin 4096) :
    val_main_v27 (F := Ideal) x0 x1 x2 x3 (ix3 h r j) = expo (qRow x0 x1 x2 h r) (kRows x0 x3 h) j := by
  rw [val_main_v27_apply, val_main_v26_apply, val_main_v25_apply, val_main_v24_apply, idx_v24_v25, v23_apply, v20_apply]
  rfl

theorem idx_v28 (h : Fin 16) (r k : Fin 4096) : idx_main_v28 (ix2 h r) k = ix3 h r k :=
  funext fun a => Fin.ext (by match a with | ⟨0, _⟩ => rfl | ⟨1, _⟩ => rfl | ⟨2, _⟩ => rfl)

/-- The sum over the key axis, at (h, r), is the row's sum of exponentials. -/
theorem v28_apply (h : Fin 16) (r : Fin 4096) :
    val_main_v28 (F := Ideal) x0 x1 x2 x3 (ix2 h r) = denom (qRow x0 x1 x2 h r) (kRows x0 x3 h) := by
  rw [val_main_v28_apply, val_main_cst_2_apply]
  simp only [idx_v28, v27_apply]
  rw [Ideal.ofBits_def, Ideal.ofBits_zero_f32, zero_add]
  rfl

theorem idx_v29_v30 (h : Fin 16) (r j : Fin 4096) : idx_main_v29 (idx_main_v30 (ix3 h r j)) = ix2 h r :=
  funext fun a => Fin.ext (by match a with | ⟨0, _⟩ => rfl | ⟨1, _⟩ => rfl)

/-- The weight query row (h, r) gives key row j. -/
theorem v31_apply (h : Fin 16) (r j : Fin 4096) :
    val_main_v31 (F := Ideal) x0 x1 x2 x3 (ix3 h r j) = prob (qRow x0 x1 x2 h r) (kRows x0 x3 h) j := by
  rw [val_main_v31_apply, val_main_v30_apply, val_main_v29_apply, idx_v29_v30, v28_apply, v27_apply]
  rfl

end Scores

/-! ## The weights against the values -/

theorem lidx_v32 (h : Fin 16) (r : Fin 4096) (d : Fin 64) (k : Fin 4096) : lidx_main_v32 (ix3 h r d) k = ix3 h r k :=
  funext fun a => Fin.ext (by match a with | ⟨0, _⟩ => rfl | ⟨1, _⟩ => rfl | ⟨2, _⟩ => rfl)

theorem ridx_v32 (h : Fin 16) (r : Fin 4096) (d : Fin 64) (k : Fin 4096) : ridx_main_v32 (ix3 h r d) k = ix3 h k d :=
  funext fun a => Fin.ext (by match a with | ⟨0, _⟩ => rfl | ⟨1, _⟩ => rfl | ⟨2, _⟩ => rfl)

/-- The weights against the values, head-major, are the specification's attention of the three projections. -/
theorem v32_eq (x0 : (⟨S4096x1024, .f32⟩ : BufTy).Contents (Elt Ideal)) (x1 : (⟨S1024x1024, .f32⟩ : BufTy).Contents (Elt Ideal)) (x2 : (⟨S1024, .f32⟩ : BufTy).Contents (Elt Ideal))
    (x3 x4 : (⟨S1024x1024, .f32⟩ : BufTy).Contents (Elt Ideal)) (x5 : (⟨S1024, .f32⟩ : BufTy).Contents (Elt Ideal)) :
    val_main_v32 (F := Ideal) x0 x1 x2 x3 x4 x5 = attn (headsB x0 x1 x2) (heads x0 x3) (headsB x0 x4 x5) := by
  funext i
  obtain ⟨h, r, d, rfl⟩ : ∃ (h : Fin 16) (r : Fin 4096) (d : Fin 64), i = ix3 h r d := ⟨i 0, i 1, i 2, eq_ix3 i⟩
  rw [val_main_v32_apply, v17_eq, attn_ix3]
  simp only [lidx_v32, ridx_v32, v31_apply]
  rfl

/-! ## Stage 3: the heads merged and projected -/

/-- Position (r, c) of the [4096, 1024] layout is position (r, c div 64, c mod 64) of the [4096, 16, 64] one. -/
theorem merge_row (r : Fin 4096) (c : Fin 1024) : (r.val * 1024 + c.val) / 1024 = r.val := by
  have := r.isLt; have := c.isLt; omega

theorem merge_head (r : Fin 4096) (c : Fin 1024) : (r.val * 1024 + c.val) / 64 % 16 = c.val / 64 := by
  have := r.isLt; have := c.isLt; omega

theorem merge_lane (r : Fin 4096) (c : Fin 1024) : (r.val * 1024 + c.val) % 64 = c.val % 64 := by
  have := r.isLt; have := c.isLt; omega

theorem idx_v33_v34 (r : Fin 4096) (c : Fin 1024) :
    idx_main_v33 (idx_main_v34 (ix2 r c)) = ix3 (headOf c) r (laneOf c) :=
  funext fun a => Fin.ext (by
    match a with
    | ⟨0, _⟩ => exact merge_head r c
    | ⟨1, _⟩ => exact merge_row r c
    | ⟨2, _⟩ => exact merge_lane r c)

theorem lidx_v36 (r : Fin 4096) (c k : Fin 1024) : lidx_main_v36 (ix2 r c) k = ix2 r k :=
  funext fun a => Fin.ext (by match a with | ⟨0, _⟩ => rfl | ⟨1, _⟩ => rfl)

theorem ridx_v36 (r : Fin 4096) (c k : Fin 1024) : idx_main_v35 (ridx_main_v36 (ix2 r c) k) = ix2 c k :=
  funext fun a => Fin.ext (by match a with | ⟨0, _⟩ => rfl | ⟨1, _⟩ => rfl)

theorem bidx_v38 (r : Fin 4096) (c : Fin 1024) : idx_main_v37 (idx_main_v38 (ix2 r c)) = ix1 c :=
  funext fun a => Fin.ext (by match a with | ⟨0, _⟩ => rfl)

/-! ## The whole program -/

/-- The reference program's result is the attention layer of the specification. -/
theorem ref_eq (x0 : (⟨S4096x1024, .f32⟩ : BufTy).Contents (Elt Ideal)) (x1 : (⟨S1024x1024, .f32⟩ : BufTy).Contents (Elt Ideal)) (x2 : (⟨S1024, .f32⟩ : BufTy).Contents (Elt Ideal))
    (x3 x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) :
    Cert.ReferenceIdeal.Read.val_main_v39 (F := Ideal) x0 x1 x2 x3 x4 x5 x6 x7 = Cert.Mha.model x0 x1 x2 x3 x4 x5 x6 x7 := by
  funext i
  obtain ⟨r, c, rfl⟩ : ∃ (r : Fin 4096) (c : Fin 1024), i = ix2 r c := ⟨i 0, i 1, eq_ix2 i⟩
  rw [val_main_v39_apply, val_main_v36_apply, val_main_v38_apply, val_main_v37_apply, bidx_v38]
  simp only [lidx_v36, val_main_v34_apply, val_main_v33_apply, idx_v33_v34, v32_eq, val_main_v35_apply, ridx_v36]
  rfl

end Cert.Mha.Ref

end
-- ==== Proof.lean ====
/-
  A multi-head self-attention layer computed in three pipelined regions, against its statement in plain array
  operations: run from memories that agree on the eight arguments, the two end with equal results as extended reals.

  The layer: three linear maps of 4096 tokens of width 1024 (query and value with bias, key without), split into 16
  heads of width 64; per head, every query row scored against every key row, scaled by 1/8, the row's maximum
  subtracted, exponentiated, normalised by the row's sum, and applied to the value rows; the heads merged back and one
  more linear map with bias. The first program does the projections 512 token rows at a time, the attention one head
  and 512 query rows at a time, the output projection 512 rows at a time, on operands cast to a narrower float format;
  the second does each step once on whole arrays. On the extended reals a change of format is the identity, a matrix
  product into a zero accumulator and the array language's contraction are the same finite sum, and the two programs
  apply the same operations in the same order to the same entries — so both results are ONE function of the eight
  arguments (`Cert.Mha.model`, Proof/Spec.lean), and no entry's finiteness is ever used.

  The first program's side: its run with every buffer named at the end (Proof/KRun.lean); each region's output array
  as one function of the arrays the region finds, from the body's arithmetic at one entry (Proof/PayProj.lean,
  Proof/PayAttn.lean) and the tiling of the array by the region's blocks (Proof/KQkv.lean, Proof/KAttn.lean,
  Proof/KOut.lean); and the three composed (Proof/KValue.lean). The second program's side: its operations read one at
  a time at an index (Proof/RefValue.lean). Both programs terminate without a fault and leave their arguments as
  launched; the idealization rewrote no operation, so there is nothing to preserve.
-/
import proofs.«148096_j44581760532548_2_alg».proof.Defs
import proofs.«148096_j44581760532548_2_alg».proof.Proof.Gen.Kernel
import proofs.«148096_j44581760532548_2_alg».proof.Proof.Gen.Kernel.Skeleton
import proofs.«148096_j44581760532548_2_alg».proof.Proof.Gen.Kernel.Launch
import proofs.«148096_j44581760532548_2_alg».proof.Proof.Gen.Kernel.Points
import proofs.«148096_j44581760532548_2_alg».proof.Proof.Gen.Kernel.Frame
import proofs.«148096_j44581760532548_2_alg».proof.Proof.Gen.KernelIdeal
import proofs.«148096_j44581760532548_2_alg».proof.Proof.Gen.KernelIdeal.Skeleton
import proofs.«148096_j44581760532548_2_alg».proof.Proof.Gen.KernelIdeal.Launch
import proofs.«148096_j44581760532548_2_alg».proof.Proof.Gen.KernelIdeal.Points
import proofs.«148096_j44581760532548_2_alg».proof.Proof.Gen.KernelIdeal.Frame
import proofs.«148096_j44581760532548_2_alg».proof.Proof.Gen.ReferenceIdeal
import proofs.«148096_j44581760532548_2_alg».proof.Proof.Gen.ReferenceIdeal.Run
import proofs.«148096_j44581760532548_2_alg».proof.Proof.Gen.ReferenceIdeal.Read
import proofs.«148096_j44581760532548_2_alg».proof.Proof.Gen.Pre_finite_inputs
import proofs.«148096_j44581760532548_2_alg».proof.Proof.KRun
import proofs.«148096_j44581760532548_2_alg».proof.Proof.KValue
import proofs.«148096_j44581760532548_2_alg».proof.Proof.RefValue
import Idealize.ShloMosaic.Adequacy
import Idealize.ShloMosaic.Init

noncomputable section

namespace Cert.Proof

open Idealize.ShloMosaic Idealize.ShloMosaic.TcCoe Idealize.SL.Sem

/-- The word-level program terminates without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The array-language program's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the attention layer of the shared arguments in their result array. -/
theorem algebraic : Cert.algebraic_KernelIdeal_ReferenceIdeal := by
  intro m ρ m' ρ' _ hagree
  refine ⟨fun c => Cert.Mha.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(Cert.KernelIdeal.Whole.result_at m ρ r h c).trans (Cert.KernelIdeal.Whole.value m ρ c),
        Cert.KernelIdeal.Whole.args_at m ρ r h c⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v39_eq, Cert.Mha.Ref.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
